-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S50000x16x2 : Shape := ⟨3, ![50000, 16, 2]⟩
abbrev S2x800000 : Shape := ⟨2, ![2, 800000]⟩
abbrev S800000x32 : Shape := ⟨2, ![800000, 32]⟩
abbrev S800000x2x2 : Shape := ⟨3, ![800000, 2, 2]⟩
abbrev S16x48 : Shape := ⟨2, ![16, 48]⟩
abbrev S48x16 : Shape := ⟨2, ![48, 16]⟩
abbrev S64x48 : Shape := ⟨2, ![64, 48]⟩
abbrev S48 : Shape := ⟨1, ![48]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S50000x16x2 : S_.BroadcastsInDim S50000x16x2 (![] : Fin 0 → Fin S50000x16x2.rank)
  reducesTo_S50000x16x2_S_d0_1_2 : S50000x16x2.ReducesTo [0, 1, 2] S_
  bcast_S_S800000x32 : S_.BroadcastsInDim S800000x32 (![] : Fin 0 → Fin S800000x32.rank)
  reducesTo_S800000x32_S_d0_1 : S800000x32.ReducesTo [0, 1] S_
  bcast_S_S800000x2x2 : S_.BroadcastsInDim S800000x2x2 (![] : Fin 0 → Fin S800000x2x2.rank)
  reducesTo_S800000x2x2_S_d0_1_2 : S800000x2x2.ReducesTo [0, 1, 2] S_
  bcast_S_S16x48 : S_.BroadcastsInDim S16x48 (![] : Fin 0 → Fin S16x48.rank)
  reducesTo_S16x48_S_d0_1 : S16x48.ReducesTo [0, 1] S_
  bcast_S_S48x16 : S_.BroadcastsInDim S48x16 (![] : Fin 0 → Fin S48x16.rank)
  reducesTo_S48x16_S_d0_1 : S48x16.ReducesTo [0, 1] S_
  bcast_S_S64x48 : S_.BroadcastsInDim S64x48 (![] : Fin 0 → Fin S64x48.rank)
  reducesTo_S64x48_S_d0_1 : S64x48.ReducesTo [0, 1] S_
  bcast_S_S48 : S_.BroadcastsInDim S48 (![] : Fin 0 → Fin S48.rank)
  reducesTo_S48_S_d0 : S48.ReducesTo [0] S_

variable [Facts]

def fn_part2 {F : FTy → Type} [FloatOps F] (main_arg8 : FVec F S48x16 .f32) (main_arg9 : FVec F S64x48 .f32) (main_arg10 : FVec F S48 .f32) (main_v33 : IVec S_ 1) : IVec S_ 1 :=
  let main_v34 : FVec F S48x16 .f32 := Host.absf main_arg8
  let main_cst_12 : FVec F S_ .f32 := constant S_ .f32 0x7F800000#32
  let main_v35 : FVec F S48x16 .f32 := broadcastInDim S48x16 ![] bcast_S_S48x16 main_cst_12
  let main_v36 : IVec S48x16 1 := cmpf .olt main_v34 main_v35
  let main_c_13 : IVec S_ 1 := constantI S_ 1 1#1
  let main_v37 : IVec S_ 1 := (fun x v => Host.reduce IntOp.andi x v reducesTo_S48x16_S_d0_1 h_S_) main_v36 main_c_13
  let main_v38 : IVec S_ 1 := andi main_v33 main_v37
  let main_v39 : FVec F S64x48 .f32 := Host.absf main_arg9
  let main_cst_14 : FVec F S_ .f32 := constant S_ .f32 0x7F800000#32
  let main_v40 : FVec F S64x48 .f32 := broadcastInDim S64x48 ![] bcast_S_S64x48 main_cst_14
  let main_v41 : IVec S64x48 1 := cmpf .olt main_v39 main_v40
  let main_c_15 : IVec S_ 1 := constantI S_ 1 1#1
  let main_v42 : IVec S_ 1 := (fun x v => Host.reduce IntOp.andi x v reducesTo_S64x48_S_d0_1 h_S_) main_v41 main_c_15
  let main_v43 : IVec S_ 1 := andi main_v38 main_v42
  let main_v44 : FVec F S48 .f32 := Host.absf main_arg10
  let main_cst_16 : FVec F S_ .f32 := constant S_ .f32 0x7F800000#32
  let main_v45 : FVec F S48 .f32 := broadcastInDim S48 ![] bcast_S_S48 main_cst_16
  let main_v46 : IVec S48 1 := cmpf .olt main_v44 main_v45
  let main_c_17 : IVec S_ 1 := constantI S_ 1 1#1
  let main_v47 : IVec S_ 1 := (fun x v => Host.reduce IntOp.andi x v reducesTo_S48_S_d0 h_S_) main_v46 main_c_17
  let main_v48 : IVec S_ 1 := andi main_v43 main_v47
  main_v48

def fn_part1 {F : FTy → Type} [FloatOps F] (main_arg5 : FVec F S16x48 .f32) (main_arg6 : FVec F S16x48 .f32) (main_arg7 : FVec F S48x16 .f32) (main_arg8 : FVec F S48x16 .f32) (main_arg9 : FVec F S64x48 .f32) (main_arg10 : FVec F S48 .f32) (main_v13 : IVec S_ 1) (main_v16 : IVec S800000x2x2 1) : IVec S_ 1 :=
  let main_c_5 : IVec S_ 1 := constantI S_ 1 1#1
  let main_v17 : IVec S_ 1 := (fun x v => Host.reduce IntOp.andi x v reducesTo_S800000x2x2_S_d0_1_2 h_S_) main_v16 main_c_5
  let main_v18 : IVec S_ 1 := andi main_v13 main_v17
  let main_v19 : FVec F S16x48 .f32 := Host.absf main_arg5
  let main_cst_6 : FVec F S_ .f32 := constant S_ .f32 0x7F800000#32
  let main_v20 : FVec F S16x48 .f32 := broadcastInDim S16x48 ![] bcast_S_S16x48 main_cst_6
  let main_v21 : IVec S16x48 1 := cmpf .olt main_v19 main_v20
  let main_c_7 : IVec S_ 1 := constantI S_ 1 1#1
  let main_v22 : IVec S_ 1 := (fun x v => Host.reduce IntOp.andi x v reducesTo_S16x48_S_d0_1 h_S_) main_v21 main_c_7
  let main_v23 : IVec S_ 1 := andi main_v18 main_v22
  let main_v24 : FVec F S16x48 .f32 := Host.absf main_arg6
  let main_cst_8 : FVec F S_ .f32 := constant S_ .f32 0x7F800000#32
  let main_v25 : FVec F S16x48 .f32 := broadcastInDim S16x48 ![] bcast_S_S16x48 main_cst_8
  let main_v26 : IVec S16x48 1 := cmpf .olt main_v24 main_v25
  let main_c_9 : IVec S_ 1 := constantI S_ 1 1#1
  let main_v27 : IVec S_ 1 := (fun x v => Host.reduce IntOp.andi x v reducesTo_S16x48_S_d0_1 h_S_) main_v26 main_c_9
  let main_v28 : IVec S_ 1 := andi main_v23 main_v27
  let main_v29 : FVec F S48x16 .f32 := Host.absf main_arg7
  let main_cst_10 : FVec F S_ .f32 := constant S_ .f32 0x7F800000#32
  let main_v30 : FVec F S48x16 .f32 := broadcastInDim S48x16 ![] bcast_S_S48x16 main_cst_10
  let main_v31 : IVec S48x16 1 := cmpf .olt main_v29 main_v30
  let main_c_11 : IVec S_ 1 := constantI S_ 1 1#1
  let main_v32 : IVec S_ 1 := (fun x v => Host.reduce IntOp.andi x v reducesTo_S48x16_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x32 .f32) (main_arg1 : FVec F S50000x16x2 .f32) (main_arg2 : IVec S2x800000 32) (main_arg3 : FVec F S800000x32 .f32) (main_arg4 : FVec F S800000x2x2 .f32) (main_arg5 : FVec F S16x48 .f32) (main_arg6 : FVec F S16x48 .f32) (main_arg7 : FVec F S48x16 .f32) (main_arg8 : FVec F S48x16 .f32) (main_arg9 : FVec F S64x48 .f32) (main_arg10 : FVec F S48 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S50000x16x2 .f32 := Host.absf main_arg1
  let main_cst_0 : FVec F S_ .f32 := constant S_ .f32 0x7F800000#32
  let main_v5 : FVec F S50000x16x2 .f32 := broadcastInDim S50000x16x2 ![] bcast_S_S50000x16x2 main_cst_0
  let main_v6 : IVec S50000x16x2 1 := cmpf .olt main_v4 main_v5
  let main_c_1 : IVec S_ 1 := constantI S_ 1 1#1
  let main_v7 : IVec S_ 1 := (fun x v => Host.reduce IntOp.andi x v reducesTo_S50000x16x2_S_d0_1_2 h_S_) main_v6 main_c_1
  let main_v8 : IVec S_ 1 := andi main_v3 main_v7
  let main_v9 : FVec F S800000x32 .f32 := Host.absf main_arg3
  let main_cst_2 : FVec F S_ .f32 := constant S_ .f32 0x7F800000#32
  let main_v10 : FVec F S800000x32 .f32 := broadcastInDim S800000x32 ![] bcast_S_S800000x32 main_cst_2
  let main_v11 : IVec S800000x32 1 := cmpf .olt main_v9 main_v10
  let main_c_3 : IVec S_ 1 := constantI S_ 1 1#1
  let main_v12 : IVec S_ 1 := (fun x v => Host.reduce IntOp.andi x v reducesTo_S800000x32_S_d0_1 h_S_) main_v11 main_c_3
  let main_v13 : IVec S_ 1 := andi main_v8 main_v12
  let main_v14 : FVec F S800000x2x2 .f32 := Host.absf main_arg4
  let main_cst_4 : FVec F S_ .f32 := constant S_ .f32 0x7F800000#32
  let main_v15 : FVec F S800000x2x2 .f32 := broadcastInDim S800000x2x2 ![] bcast_S_S800000x2x2 main_cst_4
  let main_v16 : IVec S800000x2x2 1 := cmpf .olt main_v14 main_v15
  fn_part1 (F := F) main_arg5 main_arg6 main_arg7 main_arg8 main_arg9 main_arg10 main_v13 main_v16
-- ==== Kernel.lean ====
abbrev S50000x32 : Shape := ⟨2, ![50000, 32]⟩
abbrev S50000x16x2 : Shape := ⟨3, ![50000, 16, 2]⟩
abbrev S2x800000 : Shape := ⟨2, ![2, 800000]⟩
abbrev S800000x32 : Shape := ⟨2, ![800000, 32]⟩
abbrev S800000x2x2 : Shape := ⟨3, ![800000, 2, 2]⟩
abbrev S16x48 : Shape := ⟨2, ![16, 48]⟩
abbrev S48x16 : Shape := ⟨2, ![48, 16]⟩
abbrev S64x48 : Shape := ⟨2, ![64, 48]⟩
abbrev S48 : Shape := ⟨1, ![48]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x16x2 : Shape := ⟨3, ![800000, 16, 2]⟩
abbrev S800000x16x1 : Shape := ⟨3, ![800000, 16, 1]⟩
abbrev S800000x16 : Shape := ⟨2, ![800000, 16]⟩
abbrev S800000x64 : Shape := ⟨2, ![800000, 64]⟩
abbrev S5000x16 : Shape := ⟨2, ![5000, 16]⟩
abbrev S5000x64 : Shape := ⟨2, ![5000, 64]⟩
abbrev S5000x32 : Shape := ⟨2, ![5000, 32]⟩
abbrev S5000x48 : Shape := ⟨2, ![5000, 48]⟩
abbrev S1x48 : Shape := ⟨2, ![1, 48]⟩
abbrev S50000x16 : Shape := ⟨2, ![50000, 16]⟩
abbrev S50000x16x1 : Shape := ⟨3, ![50000, 16, 1]⟩

abbrev nBuf : Space → Nat
  | .hbm => 52
  | .vmem => 14
  | .smem => 0
  | _ => 0

abbrev bufTy : (tb : Table) → Fin (tcTables nBuf tb) → BufTy
  | .hbm, ⟨0, _⟩ => ⟨S50000x32, .f32⟩
  | .hbm, ⟨1, _⟩ => ⟨S50000x16x2, .f32⟩
  | .hbm, ⟨2, _⟩ => ⟨S2x800000, .i32⟩
  | .hbm, ⟨3, _⟩ => ⟨S800000x32, .f32⟩
  | .hbm, ⟨4, _⟩ => ⟨S800000x2x2, .f32⟩
  | .hbm, ⟨5, _⟩ => ⟨S16x48, .f32⟩
  | .hbm, ⟨6, _⟩ => ⟨S16x48, .f32⟩
  | .hbm, ⟨7, _⟩ => ⟨S48x16, .f32⟩
  | .hbm, ⟨8, _⟩ => ⟨S48x16, .f32⟩
  | .hbm, ⟨9, _⟩ => ⟨S64x48, .f32⟩
  | .hbm, ⟨10, _⟩ => ⟨S48, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x16x2, .f32⟩
  | .hbm, ⟨24, _⟩ => ⟨S800000x16x1, .f32⟩
  | .hbm, ⟨25, _⟩ => ⟨S800000x16, .f32⟩
  | .hbm, ⟨26, _⟩ => ⟨S800000x16x1, .f32⟩
  | .hbm, ⟨27, _⟩ => ⟨S800000x16, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x32, .f32⟩
  | .hbm, ⟨37, _⟩ => ⟨S800000x64, .f32⟩
  | .hbm, ⟨38, _⟩ => ⟨S800000x32, .f32⟩
  | .hbm, ⟨39, _⟩ => ⟨S800000x16, .f32⟩
  | .hbm, ⟨40, _⟩ => ⟨S800000x16, .f32⟩
  | .hbm, ⟨41, _⟩ => ⟨S_, .f32⟩
  | .hbm, ⟨42, _⟩ => ⟨S50000x16, .f32⟩
  | .hbm, ⟨43, _⟩ => ⟨S800000x1, .i32⟩
  | .hbm, ⟨44, _⟩ => ⟨S50000x16, .f32⟩
  | .hbm, ⟨45, _⟩ => ⟨S_, .f32⟩
  | .hbm, ⟨46, _⟩ => ⟨S50000x16, .f32⟩
  | .hbm, ⟨47, _⟩ => ⟨S800000x1, .i32⟩
  | .hbm, ⟨48, _⟩ => ⟨S50000x16, .f32⟩
  | .hbm, ⟨49, _⟩ => ⟨S50000x16x1, .f32⟩
  | .hbm, ⟨50, _⟩ => ⟨S50000x16x1, .f32⟩
  | .hbm, ⟨51, _⟩ => ⟨S50000x16x2, .f32⟩
  | .local _ .vmem, ⟨0, _⟩ => ⟨S5000x16, .f32⟩
  | .local _ .vmem, ⟨1, _⟩ => ⟨S5000x16, .f32⟩
  | .local _ .vmem, ⟨2, _⟩ => ⟨S5000x16, .f32⟩
  | .local _ .vmem, ⟨3, _⟩ => ⟨S5000x16, .f32⟩
  | .local _ .vmem, ⟨4, _⟩ => ⟨S5000x64, .f32⟩
  | .local _ .vmem, ⟨5, _⟩ => ⟨S5000x64, .f32⟩
  | .local _ .vmem, ⟨6, _⟩ => ⟨S16x48, .f32⟩
  | .local _ .vmem, ⟨7, _⟩ => ⟨S16x48, .f32⟩
  | .local _ .vmem, ⟨8, _⟩ => ⟨S48x16, .f32⟩
  | .local _ .vmem, ⟨9, _⟩ => ⟨S48x16, .f32⟩
  | .local _ .vmem, ⟨10, _⟩ => ⟨S64x48, .f32⟩
  | .local _ .vmem, ⟨11, _⟩ => ⟨S48, .f32⟩
  | .local _ .vmem, ⟨12, _⟩ => ⟨S5000x32, .f32⟩
  | .local _ .vmem, ⟨13, _⟩ => ⟨S5000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S800000x16x2_S800000x16x1_0_0_0 : S800000x16x2.Slices ![0, 0, 0] S800000x16x1
  shapeCasts_S800000x16x1_S800000x16 : S800000x16x1.ShapeCasts S800000x16
  slices_S800000x16x2_S800000x16x1_0_0_1 : S800000x16x2.Slices ![0, 0, 1] S800000x16x1
  concatenates_S800000x32_S800000x32_S800000x64_d1 : Shape.Concatenates [S800000x32, S800000x32] S800000x64 1
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S16x48_S16x48_0_0 : ∀ a, (![0, 0] : Fin 2 → Nat) a + S16x48.size a ≤ S16x48.size a
  h_S16x48 : 0 < S16x48.numel
  inb_S64x48_S64x48_0_0 : ∀ a, (![0, 0] : Fin 2 → Nat) a + S64x48.size a ≤ S64x48.size a
  h_S64x48 : 0 < S64x48.numel
  inb_S48_S48_0 : ∀ a, (![0] : Fin 1 → Nat) a + S48.size a ≤ S48.size a
  h_S48 : 0 < S48.numel
  shapeCasts_S48_S1x48 : S48.ShapeCasts S1x48
  broadcasts_S1x48_S5000x48 : S1x48.Broadcasts S5000x48
  inb_S48x16_S48x16_0_0 : ∀ a, (![0, 0] : Fin 2 → Nat) a + S48x16.size a ≤ S48x16.size a
  h_S48x16 : 0 < S48x16.numel
  concatenates_S5000x16_S5000x16_S5000x32_d1 : Shape.Concatenates [S5000x16, S5000x16] S5000x32 1
  inb_S5000x32_S5000x32_0_0 : ∀ a, (![0, 0] : Fin 2 → Nat) a + S5000x32.size a ≤ S5000x32.size a
  h_S5000x32 : 0 < S5000x32.numel
  slices_S800000x32_S800000x16_0_0 : S800000x32.Slices ![0, 0] S800000x16
  slices_S800000x32_S800000x16_0_16 : S800000x32.Slices ![0, 16] S800000x16
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  concatenates_S50000x16x1_S50000x16x1_S50000x16x2_d2 : Shape.Concatenates [S50000x16x1, S50000x16x1] S50000x16x2 2
  gather_S50000x16x2_S800000x1_S800000x16x2_12_0_n_n_0_1_1162_wf : GatherDims.WF S50000x16x2 S800000x1 S800000x16x2 [1, 2] [0] [] [0] [] 1 ![1, 16, 2]
  gather_S50000x32_S800000x1_S800000x32_1_0_n_n_0_1_132_wf : GatherDims.WF S50000x32 S800000x1 S800000x32 [1] [0] [] [0] [] 1 ![1, 32]
  dot_S5000x16_S16x48_S5000x48_1_0_0_1_n_n_wf : DotDims.WF S5000x16 S16x48 S5000x48 [1] [0] [0] [1] [] []
  dot_S5000x64_S64x48_S5000x48_1_0_0_1_n_n_wf : DotDims.WF S5000x64 S64x48 S5000x48 [1] [0] [0] [1] [] []
  dot_S5000x48_S48x16_S5000x16_1_0_0_1_n_n_wf : DotDims.WF S5000x48 S48x16 S5000x16 [1] [0] [0] [1] [] []
  scatter_S50000x16_S800000x1_S800000x16_1_0_0_1_wf : ScatterDims.WF S50000x16 S800000x1 S800000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S800000x16.size a
  hwx0_0 : ∀ i : grid0.Coords, EltTy.bits .f32 = 32 ∨ (Rect.block (s := S800000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S800000x16.size a
  hwx0_1 : ∀ i : grid0.Coords, EltTy.bits .f32 = 32 ∨ (Rect.block (s := S800000x16) S5000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S800000x64.size a
  hwx0_2 : ∀ i : grid0.Coords, EltTy.bits .f32 = 32 ∨ (Rect.block (s := S800000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x48.size a ≤ S16x48.size a
  hwx0_3 : ∀ i : grid0.Coords, EltTy.bits .f32 = 32 ∨ (Rect.block (s := S16x48) S16x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x48.size a ≤ S16x48.size a
  hwx0_4 : ∀ i : grid0.Coords, EltTy.bits .f32 = 32 ∨ (Rect.block (s := S16x48) S16x48.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S48x16.size a ≤ S48x16.size a
  hwx0_5 : ∀ i : grid0.Coords, EltTy.bits .f32 = 32 ∨ (Rect.block (s := S48x16) S48x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S48x16.size a ≤ S48x16.size a
  hwx0_6 : ∀ i : grid0.Coords, EltTy.bits .f32 = 32 ∨ (Rect.block (s := S48x16) S48x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x48.size a ≤ S64x48.size a
  hwx0_7 : ∀ i : grid0.Coords, EltTy.bits .f32 = 32 ∨ (Rect.block (s := S64x48) S64x48.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S48.size a ≤ S48.size a
  hwx0_8 : ∀ i : grid0.Coords, EltTy.bits .f32 = 32 ∨ (Rect.block (s := S48) S48.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x32.size a ≤ S800000x32.size a
  hwx0_9 : ∀ i : grid0.Coords, EltTy.bits .f32 = 32 ∨ (Rect.block (s := S800000x32) S5000x32.size (cc0_transform_9 i) (hinb0_9 i)).WholeWords (EltTy.packing .f32)

variable [Facts₀]

def gather_S50000x16x2_S800000x1_S800000x16x2_12_0_n_n_0_1_1162 : GatherDims S50000x16x2 S800000x1 S800000x16x2 where
  offsetDims := [1, 2]
  collapsedSliceDims := [0]
  operandBatchingDims := []
  startIndicesBatchingDims := []
  startIndexMap := [0]
  indexVectorDim := 1
  sliceSizes := ![1, 16, 2]
  wf := gather_S50000x16x2_S800000x1_S800000x16x2_12_0_n_n_0_1_1162_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S5000x16_S16x48_S5000x48_1_0_0_1_n_n : DotDims S5000x16 S16x48 S5000x48 where
  lhsContracting := [1]
  rhsContracting := [0]
  lhsNonContracting := [0]
  rhsNonContracting := [1]
  lhsBatch := []
  rhsBatch := []
  wf := dot_S5000x16_S16x48_S5000x48_1_0_0_1_n_n_wf
def dot_S5000x64_S64x48_S5000x48_1_0_0_1_n_n : DotDims S5000x64 S64x48 S5000x48 where
  lhsContracting := [1]
  rhsContracting := [0]
  lhsNonContracting := [0]
  rhsNonContracting := [1]
  lhsBatch := []
  rhsBatch := []
  wf := dot_S5000x64_S64x48_S5000x48_1_0_0_1_n_n_wf
def dot_S5000x48_S48x16_S5000x16_1_0_0_1_n_n : DotDims S5000x48 S48x16 S5000x16 where
  lhsContracting := [1]
  rhsContracting := [0]
  lhsNonContracting := [0]
  rhsNonContracting := [1]
  lhsBatch := []
  rhsBatch := []
  wf := dot_S5000x48_S48x16_S5000x16_1_0_0_1_n_n_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

abbrev win0_0 : Pipeline.Window sig grid0 :=
  Pipeline.Window.ofSpec (Memref.whole main_v12) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S16x48.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S48x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S48x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x48.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S48.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S5000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x32 : Shape := ⟨2, ![50000, 32]⟩
abbrev S50000x16x2 : Shape := ⟨3, ![50000, 16, 2]⟩
abbrev S2x800000 : Shape := ⟨2, ![2, 800000]⟩
abbrev S800000x32 : Shape := ⟨2, ![800000, 32]⟩
abbrev S800000x2x2 : Shape := ⟨3, ![800000, 2, 2]⟩
abbrev S16x48 : Shape := ⟨2, ![16, 48]⟩
abbrev S48x16 : Shape := ⟨2, ![48, 16]⟩
abbrev S64x48 : Shape := ⟨2, ![64, 48]⟩
abbrev S48 : Shape := ⟨1, ![48]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x16x2 : Shape := ⟨3, ![800000, 16, 2]⟩
abbrev S800000x64 : Shape := ⟨2, ![800000, 64]⟩
abbrev S800000x16x1 : Shape := ⟨3, ![800000, 16, 1]⟩
abbrev S800000x16 : Shape := ⟨2, ![800000, 16]⟩
abbrev S800000x48 : Shape := ⟨2, ![800000, 48]⟩
abbrev S1x48 : Shape := ⟨2, ![1, 48]⟩

abbrev nBuf : Space → Nat
  | .hbm => 74
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S50000x16x2, .f32⟩
  | .hbm, ⟨2, _⟩ => ⟨S2x800000, .i32⟩
  | .hbm, ⟨3, _⟩ => ⟨S800000x32, .f32⟩
  | .hbm, ⟨4, _⟩ => ⟨S800000x2x2, .f32⟩
  | .hbm, ⟨5, _⟩ => ⟨S16x48, .f32⟩
  | .hbm, ⟨6, _⟩ => ⟨S16x48, .f32⟩
  | .hbm, ⟨7, _⟩ => ⟨S48x16, .f32⟩
  | .hbm, ⟨8, _⟩ => ⟨S48x16, .f32⟩
  | .hbm, ⟨9, _⟩ => ⟨S64x48, .f32⟩
  | .hbm, ⟨10, _⟩ => ⟨S48, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x16x2, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x32, .f32⟩
  | .hbm, ⟨33, _⟩ => ⟨S800000x64, .f32⟩
  | .hbm, ⟨34, _⟩ => ⟨S800000x16x1, .f32⟩
  | .hbm, ⟨35, _⟩ => ⟨S800000x16, .f32⟩
  | .hbm, ⟨36, _⟩ => ⟨S800000x16x1, .f32⟩
  | .hbm, ⟨37, _⟩ => ⟨S800000x16, .f32⟩
  | .hbm, ⟨38, _⟩ => ⟨S800000x48, .f32⟩
  | .hbm, ⟨39, _⟩ => ⟨S800000x48, .f32⟩
  | .hbm, ⟨40, _⟩ => ⟨S800000x48, .f32⟩
  | .hbm, ⟨41, _⟩ => ⟨S800000x48, .f32⟩
  | .hbm, ⟨42, _⟩ => ⟨S800000x48, .f32⟩
  | .hbm, ⟨43, _⟩ => ⟨S800000x48, .f32⟩
  | .hbm, ⟨44, _⟩ => ⟨S800000x48, .f32⟩
  | .hbm, ⟨45, _⟩ => ⟨S1x48, .f32⟩
  | .hbm, ⟨46, _⟩ => ⟨S800000x48, .f32⟩
  | .hbm, ⟨47, _⟩ => ⟨S800000x48, .f32⟩
  | .hbm, ⟨48, _⟩ => ⟨S800000x48, .f32⟩
  | .hbm, ⟨49, _⟩ => ⟨S800000x48, .f32⟩
  | .hbm, ⟨50, _⟩ => ⟨S_, .f32⟩
  | .hbm, ⟨51, _⟩ => ⟨S800000x48, .f32⟩
  | .hbm, ⟨52, _⟩ => ⟨S800000x48, .f32⟩
  | .hbm, ⟨53, _⟩ => ⟨S_, .f32⟩
  | .hbm, ⟨54, _⟩ => ⟨S800000x48, .f32⟩
  | .hbm, ⟨55, _⟩ => ⟨S800000x48, .f32⟩
  | .hbm, ⟨56, _⟩ => ⟨S800000x48, .f32⟩
  | .hbm, ⟨57, _⟩ => ⟨S800000x48, .f32⟩
  | .hbm, ⟨58, _⟩ => ⟨S800000x48, .f32⟩
  | .hbm, ⟨59, _⟩ => ⟨S800000x16, .f32⟩
  | .hbm, ⟨60, _⟩ => ⟨S800000x16, .f32⟩
  | .hbm, ⟨61, _⟩ => ⟨S800000x16, .f32⟩
  | .hbm, ⟨62, _⟩ => ⟨S800000x16, .f32⟩
  | .hbm, ⟨63, _⟩ => ⟨S800000x16, .f32⟩
  | .hbm, ⟨64, _⟩ => ⟨S800000x16, .f32⟩
  | .hbm, ⟨65, _⟩ => ⟨S800000x16x1, .f32⟩
  | .hbm, ⟨66, _⟩ => ⟨S800000x16x1, .f32⟩
  | .hbm, ⟨67, _⟩ => ⟨S800000x16x2, .f32⟩
  | .hbm, ⟨68, _⟩ => ⟨S800000x32, .f32⟩
  | .hbm, ⟨69, _⟩ => ⟨S_, .f32⟩
  | .hbm, ⟨70, _⟩ => ⟨S50000x32, .f32⟩
  | .hbm, ⟨71, _⟩ => ⟨S800000x1, .i32⟩
  | .hbm, ⟨72, _⟩ => ⟨S50000x32, .f32⟩
  | .hbm, ⟨73, _⟩ => ⟨S50000x16x2, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x32_S800000x64_d1 : Shape.Concatenates [S800000x32, S800000x32] S800000x64 1
  slices_S800000x16x2_S800000x16x1_0_0_0 : S800000x16x2.Slices ![0, 0, 0] S800000x16x1
  shapeCasts_S800000x16x1_S800000x16 : S800000x16x1.ShapeCasts S800000x16
  slices_S800000x16x2_S800000x16x1_0_0_1 : S800000x16x2.Slices ![0, 0, 1] S800000x16x1
  bcast_S48_S1x48_1 : S48.BroadcastsInDim S1x48 (![1] : Fin 1 → Fin S1x48.rank)
  bcast_S1x48_S800000x48_0_1 : S1x48.BroadcastsInDim S800000x48 (![0, 1] : Fin 2 → Fin S800000x48.rank)
  bcast_S_S800000x48 : S_.BroadcastsInDim S800000x48 (![] : Fin 0 → Fin S800000x48.rank)
  bcast_S800000x16_S800000x16x1_0_1 : S800000x16.BroadcastsInDim S800000x16x1 (![0, 1] : Fin 2 → Fin S800000x16x1.rank)
  concatenates_S800000x16x1_S800000x16x1_S800000x16x2_d2 : Shape.Concatenates [S800000x16x1, S800000x16x1] S800000x16x2 2
  shapeCasts_S800000x16x2_S800000x32 : S800000x16x2.ShapeCasts S800000x32
  bcast_S_S50000x32 : S_.BroadcastsInDim S50000x32 (![] : Fin 0 → Fin S50000x32.rank)
  shapeCasts_S50000x32_S50000x16x2 : S50000x32.ShapeCasts S50000x16x2
  gather_S50000x16x2_S800000x1_S800000x16x2_12_0_n_n_0_1_1162_wf : GatherDims.WF S50000x16x2 S800000x1 S800000x16x2 [1, 2] [0] [] [0] [] 1 ![1, 16, 2]
  gather_S50000x32_S800000x1_S800000x32_1_0_n_n_0_1_132_wf : GatherDims.WF S50000x32 S800000x1 S800000x32 [1] [0] [] [0] [] 1 ![1, 32]
  dot_S800000x16_S16x48_S800000x48_1_0_0_1_n_n_wf : DotDims.WF S800000x16 S16x48 S800000x48 [1] [0] [0] [1] [] []
  dot_S800000x64_S64x48_S800000x48_1_0_0_1_n_n_wf : DotDims.WF S800000x64 S64x48 S800000x48 [1] [0] [0] [1] [] []
  dot_S800000x48_S48x16_S800000x16_1_0_0_1_n_n_wf : DotDims.WF S800000x48 S48x16 S800000x16 [1] [0] [0] [1] [] []
  scatter_S50000x32_S800000x1_S800000x32_1_0_0_1_wf : ScatterDims.WF S50000x32 S800000x1 S800000x32 [1] [0] [0] 1

variable [Facts₀]

def gather_S50000x16x2_S800000x1_S800000x16x2_12_0_n_n_0_1_1162 : GatherDims S50000x16x2 S800000x1 S800000x16x2 where
  offsetDims := [1, 2]
  collapsedSliceDims := [0]
  operandBatchingDims := []
  startIndicesBatchingDims := []
  startIndexMap := [0]
  indexVectorDim := 1
  sliceSizes := ![1, 16, 2]
  wf := gather_S50000x16x2_S800000x1_S800000x16x2_12_0_n_n_0_1_1162_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S800000x16_S16x48_S800000x48_1_0_0_1_n_n : DotDims S800000x16 S16x48 S800000x48 where
  lhsContracting := [1]
  rhsContracting := [0]
  lhsNonContracting := [0]
  rhsNonContracting := [1]
  lhsBatch := []
  rhsBatch := []
  wf := dot_S800000x16_S16x48_S800000x48_1_0_0_1_n_n_wf
def dot_S800000x64_S64x48_S800000x48_1_0_0_1_n_n : DotDims S800000x64 S64x48 S800000x48 where
  lhsContracting := [1]
  rhsContracting := [0]
  lhsNonContracting := [0]
  rhsNonContracting := [1]
  lhsBatch := []
  rhsBatch := []
  wf := dot_S800000x64_S64x48_S800000x48_1_0_0_1_n_n_wf
def dot_S800000x48_S48x16_S800000x16_1_0_0_1_n_n : DotDims S800000x48 S48x16 S800000x16 where
  lhsContracting := [1]
  rhsContracting := [0]
  lhsNonContracting := [0]
  rhsNonContracting := [1]
  lhsBatch := []
  rhsBatch := []
  wf := dot_S800000x48_S48x16_S800000x16_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.So2Spec.lean ====
/-
  The per-edge map of the layer, as mathematics on the extended reals.

  An edge carries a complex feature row `a + i b` (sixteen components each) and a row `s` of sixty-four real
  scalars. The layer applies a complex linear map `(wr1 + i wi1)` from 16 to 48 components, multiplies every
  hidden component by a real gate `silu (s · ws + bs)`, and applies a second complex linear map `(wr2 + i wi2)`
  from 48 back to 16 components:

    hidRe h = (a · wr1 - b · wi1) h * gate h          outRe r = (hidRe · wr2 - hidIm · wi2) r
    hidIm h = (a · wi1 + b · wr1) h * gate h          outIm r = (hidRe · wi2 + hidIm · wr2) r

  Nothing here is rearranged: both programs compute these very expressions, and differ only in how rows are
  tiled, how a product row · matrix is summed, and in which of two layouts the thirty-two outputs of an edge
  are stored. The two layouts are `halves` (real parts in columns 0–15, imaginary parts in 16–31) and
  `pairs` (column `2 r + c` holds the real part of component `r` for `c = 0` and the imaginary part for `c = 1`).
-/
import Idealize.ShloMosaic.PureOps.Ideal
import Idealize.ShloMosaic.Lib.ValueIdx

noncomputable section

namespace Cert.So2

open Idealize.ShloMosaic Idealize.ShloMosaic.ValueIdx

/-- A matrix of extended reals with `K` rows and `N` columns, indexed as the programs index it. -/
abbrev Mat (K N : ℕ) : Type := (⟨2, ![K, N]⟩ : Shape).Idx → EReal

/-- The six weight arrays of the layer. -/
structure Weights where
  wr1 : Mat 16 48
  wi1 : Mat 16 48
  wr2 : Mat 48 16
  wi2 : Mat 48 16
  ws : Mat 64 48
  bs : (⟨1, ![48]⟩ : Shape).Idx → EReal

/-- A row times a matrix, at column `h`: `∑ k, x k * w (k, h)`. -/
def rowMul {K N : ℕ} (x : Fin K → EReal) (w : Mat K N) (h : Fin N) : EReal :=
  ∑ k : Fin K, x k * w (ix2 k h)

/-- The gate of hidden component `h`: `z * logistic z` at `z = (s · ws) h + bs h`. -/
def gate (W : Weights) (s : Fin 64 → EReal) (h : Fin 48) : EReal :=
  (rowMul s W.ws h + W.bs (ix1 h)) * Ideal.logistic (rowMul s W.ws h + W.bs (ix1 h))

/-- Real part of the gated hidden row. -/
def hidRe (W : Weights) (a b : Fin 16 → EReal) (s : Fin 64 → EReal) (h : Fin 48) : EReal :=
  (rowMul a W.wr1 h - rowMul b W.wi1 h) * gate W s h

/-- Imaginary part of the gated hidden row. -/
def hidIm (W : Weights) (a b : Fin 16 → EReal) (s : Fin 64 → EReal) (h : Fin 48) : EReal :=
  (rowMul a W.wi1 h + rowMul b W.wr1 h) * gate W s h

/-- Real part of the edge's output row. -/
def outRe (W : Weights) (a b : Fin 16 → EReal) (s : Fin 64 → EReal) (r : Fin 16) : EReal :=
  rowMul (hidRe W a b s) W.wr2 r - rowMul (hidIm W a b s) W.wi2 r

/-- Imaginary part of the edge's output row. -/
def outIm (W : Weights) (a b : Fin 16 → EReal) (s : Fin 64 → EReal) (r : Fin 16) : EReal :=
  rowMul (hidRe W a b s) W.wi2 r + rowMul (hidIm W a b s) W.wr2 r

/-- The thirty-two outputs of an edge with the real parts first: column `q < 16` is `outRe q`, column
    `q ≥ 16` is `outIm (q - 16)`. -/
def halves (W : Weights) (a b : Fin 16 → EReal) (s : Fin 64 → EReal) (q : Fin 32) : EReal :=
  if q.val < 16 then outRe W a b s ⟨q.val % 16, Nat.mod_lt _ (by decide)⟩
  else outIm W a b s ⟨q.val % 16, Nat.mod_lt _ (by decide)⟩

/-- The same outputs as one of the two parts chosen by `c`: part `0` is real, part `1` imaginary. -/
def part (W : Weights) (a b : Fin 16 → EReal) (s : Fin 64 → EReal) (r : Fin 16) (c : Fin 2) : EReal :=
  if c.val = 0 then outRe W a b s r else outIm W a b s r

theorem halves_lo (W : Weights) (a b : Fin 16 → EReal) (s : Fin 64 → EReal) (r : Fin 16) :
    halves W a b s ⟨r.val, by have := r.isLt; omega⟩ = outRe W a b s r := by
  unfold halves
  rw [if_pos (show (⟨r.val, _⟩ : Fin 32).val < 16 from r.isLt)]
  exact congrArg _ (Fin.ext (Nat.mod_eq_of_lt r.isLt))

theorem halves_hi (W : Weights) (a b : Fin 16 → EReal) (s : Fin 64 → EReal) (r : Fin 16) :
    halves W a b s ⟨r.val + 16, by have := r.isLt; omega⟩ = outIm W a b s r := by
  unfold halves
  rw [if_neg (show ¬ (⟨r.val + 16, _⟩ : Fin 32).val < 16 from by simp)]
  exact congrArg _ (Fin.ext (by show (r.val + 16) % 16 = r.val; have := r.isLt; omega))

/-- `halves` depends only on the values of its rows and on the column's number. -/
theorem halves_congr {W W' : Weights} {a a' b b' : Fin 16 → EReal} {s s' : Fin 64 → EReal} {q q' : Fin 32}
    (hW : W = W') (ha : ∀ k, a k = a' k) (hb : ∀ k, b k = b' k) (hs : ∀ k, s k = s' k) (hq : q.val = q'.val) :
    halves W a b s q = halves W' a' b' s' q' := by
  obtain rfl := hW
  obtain rfl : a = a' := funext ha
  obtain rfl : b = b' := funext hb
  obtain rfl : s = s' := funext hs
  obtain rfl : q = q' := Fin.ext hq
  rfl

/-- `part` depends only on the values of its rows. -/
theorem part_congr {W W' : Weights} {a a' b b' : Fin 16 → EReal} {s s' : Fin 64 → EReal} (r : Fin 16) (c : Fin 2)
    (hW : W = W') (ha : ∀ k, a k = a' k) (hb : ∀ k, b k = b' k) (hs : ∀ k, s k = s' k) :
    part W a b s r c = part W' a' b' s' r c := by
  obtain rfl := hW
  obtain rfl : a = a' := funext ha
  obtain rfl : b = b' := funext hb
  obtain rfl : s = s' := funext hs
  rfl

/-- What a node receives: the sum of `f e` over the edges `e` whose destination index `dest e` is the node `n`
    (an edge whose index names no node contributes to no node). -/
def recv {E : ℕ} (dest : Fin E → ℤ) (f : Fin E → EReal) (n : ℕ) : EReal :=
  ∑ e : Fin E, if dest e = (n : ℤ) then f e else 0

end Cert.So2

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.KernelRow.lean ====
/-
  The kernel body's stored array, read at one entry.

  The body takes three blocks of 5000 edges — the real parts `a` and imaginary parts `b` of sixteen complex features and
  sixty-four real scalars `s` per edge — and six weight arrays, and stores a 5000×32 array. Its arithmetic is a chain of
  matrix products accumulated into zero, entrywise sums, differences and products, a logistic, a bias row repeated over
  the rows, and a final side-by-side joining of two 5000×16 arrays. On the extended reals every product read at an entry
  is the textbook sum over the contracted coordinate, every format change is the identity, and so entry `(p, q)` of the
  stored array depends on row `p` of the blocks only: it is output `q` of the per-edge map of the specification, in the
  layout with the sixteen real parts first and the sixteen imaginary parts after them.

  The lemmas follow the body in order: the three kinds of product at an entry; the gate; the two gated hidden arrays;
  the two halves of the output; the joining.
-/
import proofs.«149567_j88656714925232_2_alg».proof.Proof.Gen.KernelIdeal.Skeleton
import proofs.«149567_j88656714925232_2_alg».proof.Proof.So2Spec
import proofs.«149567_j88656714925232_2_alg».proof.Proof.LibPlainDot
import Idealize.ShloMosaic.Lib.Pipeline.Value
import Idealize.ShloMosaic.Lib.ValueLayout

noncomputable section

namespace Cert.KernelIdeal.Row

open Idealize.ShloMosaic Idealize.ShloMosaic.ValueIdx Cert.KernelIdeal Cert.KernelIdeal.Gen

/-- The dimension numbers of the 5000×16 by 16×48 products are the plain ones: contract the left operand's columns
    with the right operand's rows, no batch axis. -/
theorem dotA_eq : dot_S5000x16_S16x48_S5000x48_1_0_0_1_n_n = DotDims.plain 5000 16 48 := rfl
/-- Likewise for the 5000×64 by 64×48 product of the scalars with their weights. -/
theorem dotS_eq : dot_S5000x64_S64x48_S5000x48_1_0_0_1_n_n = DotDims.plain 5000 64 48 := rfl
/-- Likewise for the 5000×48 by 48×16 products of the second linear map. -/
theorem dotB_eq : dot_S5000x48_S48x16_S5000x16_1_0_0_1_n_n = DotDims.plain 5000 48 16 := rfl

/-- A 5000×16 by 16×48 product accumulated into zero, at entry `(p, h)`: `∑ k, l (p, k) * r (k, h)`. -/
theorem mmA {φ₁ φ₂ : FTy} (l : FVec Ideal S5000x16 φ₁) (r : FVec Ideal S16x48 φ₂) (p : Fin 5000) (h : Fin 48) :
    matmul dot_S5000x16_S16x48_S5000x48_1_0_0_1_n_n none l r (constant S5000x48 .f32 0x00000000#32) (ix2 p h)
      = ∑ k : Fin 16, l (ix2 p k) * r (ix2 k h) := by
  show FloatOps.matmul dot_S5000x16_S16x48_S5000x48_1_0_0_1_n_n none l r _ _ = _
  rw [dotA_eq]
  exact Gcn.Lib.plain_matmul_zero_apply l r none p h

/-- A 5000×64 by 64×48 product accumulated into zero, at entry `(p, h)`: `∑ k, l (p, k) * r (k, h)`. -/
theorem mmS {φ₁ φ₂ : FTy} (l : FVec Ideal S5000x64 φ₁) (r : FVec Ideal S64x48 φ₂) (p : Fin 5000) (h : Fin 48) :
    matmul dot_S5000x64_S64x48_S5000x48_1_0_0_1_n_n none l r (constant S5000x48 .f32 0x00000000#32) (ix2 p h)
      = ∑ k : Fin 64, l (ix2 p k) * r (ix2 k h) := by
  show FloatOps.matmul dot_S5000x64_S64x48_S5000x48_1_0_0_1_n_n none l r _ _ = _
  rw [dotS_eq]
  exact Gcn.Lib.plain_matmul_zero_apply l r none p h

/-- A 5000×48 by 48×16 product accumulated into zero, at entry `(p, h)`: `∑ k, l (p, k) * r (k, h)`. -/
theorem mmB {φ₁ φ₂ : FTy} (l : FVec Ideal S5000x48 φ₁) (r : FVec Ideal S48x16 φ₂) (p : Fin 5000) (h : Fin 16) :
    matmul dot_S5000x48_S48x16_S5000x16_1_0_0_1_n_n none l r (constant S5000x16 .f32 0x00000000#32) (ix2 p h)
      = ∑ k : Fin 48, l (ix2 p k) * r (ix2 k h) := by
  show FloatOps.matmul dot_S5000x48_S48x16_S5000x16_1_0_0_1_n_n none l r _ _ = _
  rw [dotB_eq]
  exact Gcn.Lib.plain_matmul_zero_apply l r none p h

/-- The bias row viewed as a 1×48 array and repeated over the 5000 rows reads, at `(p, h)`, the bias at `h`. -/
theorem bias_apply (x8 : Vec Ideal S48 .f32) (p : Fin 5000) (h : Fin 48) :
    broadcastTo S5000x48 (shapeCast S1x48 x8 shapeCasts_S48_S1x48) broadcasts_S1x48_S5000x48 (ix2 p h) = x8 (ix1 h) :=
  (broadcastTo_1b_ab_apply (shapeCast S1x48 x8 shapeCasts_S48_S1x48) broadcasts_S1x48_S5000x48 p h).trans
    (shapeCast_a_1a_apply x8 shapeCasts_S48_S1x48 (0 : Fin 1) h)

/-- The gate array at `(p, h)` is the gate of hidden component `h` for the scalars of row `p`:
    `z * logistic z` at `z = (s · ws) h + bs h`. On the extended reals the format changes are the identity and a cast
    of a shape to itself moves nothing. -/
theorem pay6_apply (x2 : Vec Ideal S5000x64 .f32) (x7 : Vec Ideal S64x48 .f32) (x8 : Vec Ideal S48 .f32)
    (x3 x4 : Vec Ideal S16x48 .f32) (x5 x6 : Vec Ideal S48x16 .f32) (p : Fin 5000) (h : Fin 48) :
    k0_pay6 (F := Ideal) x2 x7 x8 (ix2 p h)
      = Cert.So2.gate ⟨x3, x4, x5, x6, x7, x8⟩ (fun k => x2 (ix2 p k)) h := by
  have hm : matmul dot_S5000x64_S64x48_S5000x48_1_0_0_1_n_n none
        (truncf .bf16 (shapeCast S5000x64 x2 shapeCasts_S5000x64_S5000x64) bitsLt_bf16_f32 : FVec Ideal S5000x64 .bf16)
        (truncf .bf16 x7 bitsLt_bf16_f32 : FVec Ideal S64x48 .bf16) (constant S5000x48 .f32 0x00000000#32) (ix2 p h)
      = ∑ k : Fin 64, x2 (ix2 p k) * x7 (ix2 k h) := by
    rw [shapeCast_self]
    exact mmS _ _ p h
  have hb := bias_apply x8 p h
  unfold k0_pay6 Cert.So2.gate Cert.So2.rowMul
  show (matmul (F := Ideal) dot_S5000x64_S64x48_S5000x48_1_0_0_1_n_n none _ _ _ (ix2 p h) + broadcastTo S5000x48 _ _ (ix2 p h))
      * Ideal.logistic (matmul (F := Ideal) dot_S5000x64_S64x48_S5000x48_1_0_0_1_n_n none _ _ _ (ix2 p h) + broadcastTo S5000x48 _ _ (ix2 p h)) = _
  rw [hm, hb]

/-- The narrowed block of real parts is the block itself, entry by entry. -/
theorem pay2_apply (x0 : Vec Ideal S5000x16 .f32) (i : S5000x16.Idx) : k0_pay2 (F := Ideal) x0 i = x0 i :=
  congrFun (shapeCast_self x0 shapeCasts_S5000x16_S5000x16) i

/-- The narrowed block of imaginary parts is the block itself, entry by entry. -/
theorem pay3_apply (x1 : Vec Ideal S5000x16 .f32) (i : S5000x16.Idx) : k0_pay3 (F := Ideal) x1 i = x1 i :=
  congrFun (shapeCast_self x1 shapeCasts_S5000x16_S5000x16) i

/-- The block of real parts times a 16×48 weight array, at `(p, h)`: row `p` of the block times the array, at column `h`. -/
theorem mm_a_apply (x0 : Vec Ideal S5000x16 .f32) (w : Vec Ideal S16x48 .f32) (p : Fin 5000) (h : Fin 48) :
    matmul (F := Ideal) dot_S5000x16_S16x48_S5000x48_1_0_0_1_n_n none (k0_pay2 x0)
        (truncf .bf16 w bitsLt_bf16_f32 : FVec Ideal S16x48 .bf16) (constant S5000x48 .f32 0x00000000#32) (ix2 p h)
      = Cert.So2.rowMul (fun k => x0 (ix2 p k)) w h :=
  (mmA _ _ p h).trans (Finset.sum_congr rfl fun k _ => congrArg (· * w (ix2 k h)) (pay2_apply x0 (ix2 p k)))

/-- The block of imaginary parts times a 16×48 weight array, at `(p, h)`: row `p` of the block times the array, at column `h`. -/
theorem mm_b_apply (x1 : Vec Ideal S5000x16 .f32) (w : Vec Ideal S16x48 .f32) (p : Fin 5000) (h : Fin 48) :
    matmul (F := Ideal) dot_S5000x16_S16x48_S5000x48_1_0_0_1_n_n none (k0_pay3 x1)
        (truncf .bf16 w bitsLt_bf16_f32 : FVec Ideal S16x48 .bf16) (constant S5000x48 .f32 0x00000000#32) (ix2 p h)
      = Cert.So2.rowMul (fun k => x1 (ix2 p k)) w h :=
  (mmA _ _ p h).trans (Finset.sum_congr rfl fun k _ => congrArg (· * w (ix2 k h)) (pay3_apply x1 (ix2 p k)))

/-- The real part of the gated hidden array at `(p, h)`: `((a · wr1) h - (b · wi1) h) * gate h` for the rows `a`, `b`, `s`
    of edge `p`. -/
theorem pay7_apply (x0 x1 : Vec Ideal S5000x16 .f32) (x2 : Vec Ideal S5000x64 .f32) (x3 x4 : Vec Ideal S16x48 .f32)
    (x5 x6 : Vec Ideal S48x16 .f32) (x7 : Vec Ideal S64x48 .f32) (x8 : Vec Ideal S48 .f32) (p : Fin 5000) (h : Fin 48) :
    k0_pay7 (F := Ideal) x0 x1 x2 x3 x4 x7 x8 (ix2 p h)
      = Cert.So2.hidRe ⟨x3, x4, x5, x6, x7, x8⟩ (fun k => x0 (ix2 p k)) (fun k => x1 (ix2 p k)) (fun k => x2 (ix2 p k)) h := by
  show (matmul (F := Ideal) dot_S5000x16_S16x48_S5000x48_1_0_0_1_n_n none (k0_pay2 x0) (k0_pay4 x3) _ (ix2 p h)
        - matmul (F := Ideal) dot_S5000x16_S16x48_S5000x48_1_0_0_1_n_n none (k0_pay3 x1) (k0_pay5 x4) _ (ix2 p h))
      * k0_pay6 (F := Ideal) x2 x7 x8 (ix2 p h) = _
  rw [pay6_apply x2 x7 x8 x3 x4 x5 x6 p h]
  exact congrArg₂ (fun u v => (u - v) * _) (mm_a_apply x0 x3 p h) (mm_b_apply x1 x4 p h)

/-- The imaginary part of the gated hidden array at `(p, h)`: `((a · wi1) h + (b · wr1) h) * gate h` for the rows `a`, `b`,
    `s` of edge `p`. -/
theorem pay8_apply (x0 x1 : Vec Ideal S5000x16 .f32) (x2 : Vec Ideal S5000x64 .f32) (x3 x4 : Vec Ideal S16x48 .f32)
    (x5 x6 : Vec Ideal S48x16 .f32) (x7 : Vec Ideal S64x48 .f32) (x8 : Vec Ideal S48 .f32) (p : Fin 5000) (h : Fin 48) :
    k0_pay8 (F := Ideal) x0 x1 x2 x3 x4 x7 x8 (ix2 p h)
      = Cert.So2.hidIm ⟨x3, x4, x5, x6, x7, x8⟩ (fun k => x0 (ix2 p k)) (fun k => x1 (ix2 p k)) (fun k => x2 (ix2 p k)) h := by
  show (matmul (F := Ideal) dot_S5000x16_S16x48_S5000x48_1_0_0_1_n_n none (k0_pay2 x0) (k0_pay5 x4) _ (ix2 p h)
        + matmul (F := Ideal) dot_S5000x16_S16x48_S5000x48_1_0_0_1_n_n none (k0_pay3 x1) (k0_pay4 x3) _ (ix2 p h))
      * k0_pay6 (F := Ideal) x2 x7 x8 (ix2 p h) = _
  rw [pay6_apply x2 x7 x8 x3 x4 x5 x6 p h]
  exact congrArg₂ (fun u v => (u + v) * _) (mm_a_apply x0 x4 p h) (mm_b_apply x1 x3 p h)

/-- A 5000×48 array whose row `p` is `f`, times a 48×16 weight array, at `(p, r)`: `f` times the array, at column `r`. -/
theorem mm_h_apply (u : FVec Ideal S5000x48 .bf16) (w : Vec Ideal S48x16 .f32) (p : Fin 5000) (f : Fin 48 → EReal)
    (hu : ∀ k : Fin 48, u (ix2 p k) = f k) (r : Fin 16) :
    matmul (F := Ideal) dot_S5000x48_S48x16_S5000x16_1_0_0_1_n_n none u
        (truncf .bf16 w bitsLt_bf16_f32 : FVec Ideal S48x16 .bf16) (constant S5000x16 .f32 0x00000000#32) (ix2 p r)
      = Cert.So2.rowMul f w r :=
  (mmB _ _ p r).trans (Finset.sum_congr rfl fun k _ => congrArg (· * w (ix2 k r)) (hu k))

/-- Two 5000×16 arrays put side by side read, in a column below 16, the first array at that column. -/
theorem concat_lo {α : Type} (v w : S5000x16.Idx → α) (p : Fin 5000) (r : Fin 16) :
    concatenate S5000x32 1 [⟨S5000x16, v⟩, ⟨S5000x16, w⟩] concatenates_S5000x16_S5000x16_S5000x32_d1
        (ix2 p (⟨r.val, by have := r.isLt; omega⟩ : Fin 32)) = v (ix2 p r) :=
  concatenate_pair_apply_left (t := S5000x32) (s₁ := S5000x16) (s₂ := S5000x16) 1 v w
    concatenates_S5000x16_S5000x16_S5000x32_d1 _ rfl (ix2 p r) fun b => by
      match b with
      | ⟨0, _⟩ => rfl
      | ⟨1, _⟩ => rfl

/-- Two 5000×16 arrays put side by side read, in column `r + 16`, the second array at column `r`. -/
theorem concat_hi {α : Type} (v w : S5000x16.Idx → α) (p : Fin 5000) (r : Fin 16) :
    concatenate S5000x32 1 [⟨S5000x16, v⟩, ⟨S5000x16, w⟩] concatenates_S5000x16_S5000x16_S5000x32_d1
        (ix2 p (⟨r.val + 16, by have := r.isLt; omega⟩ : Fin 32)) = w (ix2 p r) :=
  concatenate_pair_apply_right (t := S5000x32) (s₁ := S5000x16) (s₂ := S5000x16) 1 v w
    concatenates_S5000x16_S5000x16_S5000x32_d1 _ rfl rfl (ix2 p r)
    (fun b hb => by
      match b, hb with
      | ⟨0, _⟩, _ => rfl
      | ⟨1, _⟩, hb => exact absurd rfl hb)
    rfl

section Final

variable (x0 x1 : Vec Ideal S5000x16 .f32) (x2 : Vec Ideal S5000x64 .f32) (x3 x4 : Vec Ideal S16x48 .f32)
  (x5 x6 : Vec Ideal S48x16 .f32) (x7 : Vec Ideal S64x48 .f32) (x8 : Vec Ideal S48 .f32) (p : Fin 5000)

/-- The stored 5000×32 array at `(p, r)`, `r < 16`: the real part `(hidRe · wr2) r - (hidIm · wi2) r` of edge `p`'s output. -/
theorem pay1_lo (r : Fin 16) :
    k0_pay1 (F := Ideal) (k0_pay7 x0 x1 x2 x3 x4 x7 x8) (k0_pay8 x0 x1 x2 x3 x4 x7 x8) (k0_pay9 x5) (k0_pay10 x6)
        (constant S5000x16 .f32 0x00000000#32) (ix2 p (⟨r.val, by have := r.isLt; omega⟩ : Fin 32))
      = Cert.So2.outRe ⟨x3, x4, x5, x6, x7, x8⟩ (fun k => x0 (ix2 p k)) (fun k => x1 (ix2 p k)) (fun k => x2 (ix2 p k)) r := by
  unfold k0_pay1
  refine (concat_lo _ _ p r).trans ?_
  exact congrArg₂ (· - ·)
    (mm_h_apply _ x5 p _ (fun k => pay7_apply x0 x1 x2 x3 x4 x5 x6 x7 x8 p k) r)
    (mm_h_apply _ x6 p _ (fun k => pay8_apply x0 x1 x2 x3 x4 x5 x6 x7 x8 p k) r)

/-- The stored 5000×32 array at `(p, r + 16)`: the imaginary part `(hidRe · wi2) r + (hidIm · wr2) r` of edge `p`'s output. -/
theorem pay1_hi (r : Fin 16) :
    k0_pay1 (F := Ideal) (k0_pay7 x0 x1 x2 x3 x4 x7 x8) (k0_pay8 x0 x1 x2 x3 x4 x7 x8) (k0_pay9 x5) (k0_pay10 x6)
        (constant S5000x16 .f32 0x00000000#32) (ix2 p (⟨r.val + 16, by have := r.isLt; omega⟩ : Fin 32))
      = Cert.So2.outIm ⟨x3, x4, x5, x6, x7, x8⟩ (fun k => x0 (ix2 p k)) (fun k => x1 (ix2 p k)) (fun k => x2 (ix2 p k)) r := by
  unfold k0_pay1
  refine (concat_hi _ _ p r).trans ?_
  exact congrArg₂ (· + ·)
    (mm_h_apply _ x6 p _ (fun k => pay7_apply x0 x1 x2 x3 x4 x5 x6 x7 x8 p k) r)
    (mm_h_apply _ x5 p _ (fun k => pay8_apply x0 x1 x2 x3 x4 x5 x6 x7 x8 p k) r)

/-- THE STORED ARRAY AT AN ENTRY: row `p`, column `q` of the 5000×32 array the body stores is output `q` of the
    per-edge map, real parts first, applied to row `p` of the three input blocks with the six weight arrays. -/
theorem pay_apply (q : Fin 32) :
    k0_pay1 (F := Ideal) (k0_pay7 x0 x1 x2 x3 x4 x7 x8) (k0_pay8 x0 x1 x2 x3 x4 x7 x8) (k0_pay9 x5) (k0_pay10 x6)
        (constant S5000x16 .f32 0x00000000#32) (ix2 p q)
      = Cert.So2.halves ⟨x3, x4, x5, x6, x7, x8⟩ (fun k => x0 (ix2 p k)) (fun k => x1 (ix2 p k)) (fun k => x2 (ix2 p k)) q := by
  obtain ⟨n, hn⟩ := q
  by_cases hq : n < 16
  · exact (pay1_lo x0 x1 x2 x3 x4 x5 x6 x7 x8 p ⟨n, hq⟩).trans (Cert.So2.halves_lo _ _ _ _ ⟨n, hq⟩).symm
  · obtain ⟨m, rfl⟩ : ∃ m, n = m + 16 := ⟨n - 16, by omega⟩
    have hm : m < 16 := by omega
    exact (pay1_hi x0 x1 x2 x3 x4 x5 x6 x7 x8 p ⟨m, hm⟩).trans (Cert.So2.halves_hi _ _ _ _ ⟨m, hm⟩).symm

end Final

end Cert.KernelIdeal.Row

end
-- ==== Proof.KernelValue.lean ====
/-
  The kernel's result array after the region, as one function of the arrays the region finds.

  The region runs 160 grid points; point `t` loads rows `5000 t … 5000 t + 4999` of the three per-edge arrays
  (real parts, imaginary parts, scalars), the six weight arrays whole, and stores a block of 5000 rows of 32
  columns: the edge's outputs in the `halves` layout. Every row of the [800000, 32] result lies in exactly one
  block (row `e` in block `e / 5000`), so after the region the result is, row by row, `halves` of that row's
  features.
-/
import proofs.«149567_j88656714925232_2_alg».proof.Proof.Gen.KernelIdeal.Frame
import proofs.«149567_j88656714925232_2_alg».proof.Proof.So2Spec
import proofs.«149567_j88656714925232_2_alg».proof.Proof.KernelRow
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a <;> rfl

/-- The weight arrays as the region finds them. -/
def wts (c : Dev nD) : Cert.So2.Weights :=
  ⟨V m c main_arg5, V m c main_arg6, V m c main_arg7, V m c main_arg8, V m c main_arg9, V m c main_arg10⟩

/-- The result array: row `e` is `halves` of row `e` of the three per-edge arrays. -/
def G9 (c : Dev nD) : S800000x32.Idx → EReal := fun i =>
  Cert.So2.halves (wts m c) (fun k => V m c main_v12 (ix2 (i 0) k)) (fun k => V m c main_v14 (ix2 (i 0) k))
    (fun k => V m c main_v22 (ix2 (i 0) k)) (i 1)

/-- The printed index maps over the grid: the per-edge windows and the result window are at block row `t`, column
    block 0; the weight windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-! ## A weight window's block is its whole array -/

theorem whole3 (c : Dev nD) (t : Fin cfg0.N) : iblk m c 3 t = V m c main_arg5 := by
  obtain ⟨-, -, -, -, -, -, e0, e1, -⟩ := idx_facts t
  funext y
  show V m c main_arg5 (((cfg0.win 3).blk t).view.emb y) = V m c main_arg5 y
  refine congrArg (V m c main_arg5) (funext fun a => Fin.ext ?_)
  match a with
  | ⟨0, _⟩ => show win0_3.index t (0 : Fin 2) * 16 + 1 * (y 0).val = (y 0).val; omega
  | ⟨1, _⟩ => show win0_3.index t (1 : Fin 2) * 48 + 1 * (y 1).val = (y 1).val; omega

theorem whole4 (c : Dev nD) (t : Fin cfg0.N) : iblk m c 4 t = V m c main_arg6 := by
  obtain ⟨-, -, -, -, -, -, -, -, e0, e1, -⟩ := idx_facts t
  funext y
  show V m c main_arg6 (((cfg0.win 4).blk t).view.emb y) = V m c main_arg6 y
  refine congrArg (V m c main_arg6) (funext fun a => Fin.ext ?_)
  match a with
  | ⟨0, _⟩ => show win0_4.index t (0 : Fin 2) * 16 + 1 * (y 0).val = (y 0).val; omega
  | ⟨1, _⟩ => show win0_4.index t (1 : Fin 2) * 48 + 1 * (y 1).val = (y 1).val; omega

theorem whole5 (c : Dev nD) (t : Fin cfg0.N) : iblk m c 5 t = V m c main_arg7 := by
  obtain ⟨-, -, -, -, -, -, -, -, -, -, e0, e1, -⟩ := idx_facts t
  funext y
  show V m c main_arg7 (((cfg0.win 5).blk t).view.emb y) = V m c main_arg7 y
  refine congrArg (V m c main_arg7) (funext fun a => Fin.ext ?_)
  match a with
  | ⟨0, _⟩ => show win0_5.index t (0 : Fin 2) * 48 + 1 * (y 0).val = (y 0).val; omega
  | ⟨1, _⟩ => show win0_5.index t (1 : Fin 2) * 16 + 1 * (y 1).val = (y 1).val; omega

theorem whole6 (c : Dev nD) (t : Fin cfg0.N) : iblk m c 6 t = V m c main_arg8 := by
  obtain ⟨-, -, -, -, -, -, -, -, -, -, -, -, e0, e1, -⟩ := idx_facts t
  funext y
  show V m c main_arg8 (((cfg0.win 6).blk t).view.emb y) = V m c main_arg8 y
  refine congrArg (V m c main_arg8) (funext fun a => Fin.ext ?_)
  match a with
  | ⟨0, _⟩ => show win0_6.index t (0 : Fin 2) * 48 + 1 * (y 0).val = (y 0).val; omega
  | ⟨1, _⟩ => show win0_6.index t (1 : Fin 2) * 16 + 1 * (y 1).val = (y 1).val; omega

theorem whole7 (c : Dev nD) (t : Fin cfg0.N) : iblk m c 7 t = V m c main_arg9 := by
  obtain ⟨-, -, -, -, -, -, -, -, -, -, -, -, -, -, e0, e1, -⟩ := idx_facts t
  funext y
  show V m c main_arg9 (((cfg0.win 7).blk t).view.emb y) = V m c main_arg9 y
  refine congrArg (V m c main_arg9) (funext fun a => Fin.ext ?_)
  match a with
  | ⟨0, _⟩ => show win0_7.index t (0 : Fin 2) * 64 + 1 * (y 0).val = (y 0).val; omega
  | ⟨1, _⟩ => show win0_7.index t (1 : Fin 2) * 48 + 1 * (y 1).val = (y 1).val; omega

theorem whole8 (c : Dev nD) (t : Fin cfg0.N) : iblk m c 8 t = V m c main_arg10 := by
  obtain ⟨-, -, -, -, -, -, -, -, -, -, -, -, -, -, -, -, e0, -⟩ := idx_facts t
  funext y
  show V m c main_arg10 (((cfg0.win 8).blk t).view.emb y) = V m c main_arg10 y
  refine congrArg (V m c main_arg10) (funext fun a => Fin.ext ?_)
  match a with
  | ⟨0, _⟩ => show win0_8.index t (0 : Fin 1) * 48 + 1 * (y 0).val = (y 0).val; omega

/-! ## What a point writes back is its block of `G9` -/

theorem flushed_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz]
  simp only [View.ld_unit_zero (S := S5000x16) hz, View.ld_unit_zero (S := S5000x64) hz,
    View.ld_unit_zero (S := S16x48) hz, View.ld_unit_zero (S := S64x48) hz, View.ld_unit_zero (S := S48) hz1,
    View.ld_unit_zero (S := S48x16) hz]
  obtain ⟨a00, a01, a10, a11, a20, a21, -, -, -, -, -, -, -, -, -, -, -, a90, a91⟩ := idx_facts t
  funext j
  obtain ⟨p, q, rfl⟩ : ∃ (p : Fin 5000) (q : Fin 32), j = ix2 p q := ⟨j 0, j 1, eq_ix2 j⟩
  refine (Cert.KernelIdeal.Row.pay_apply (iblk m c 0 t) (iblk m c 1 t) (iblk m c 2 t) (iblk m c 3 t) (iblk m c 4 t)
    (iblk m c 5 t) (iblk m c 6 t) (iblk m c 7 t) (iblk m c 8 t) p q).trans ?_
  show _ = Cert.So2.halves (wts m c)
    (fun k => V m c main_v12 (ix2 ((((cfg0.win 9).blk t).view.emb (ix2 p q)) 0) k))
    (fun k => V m c main_v14 (ix2 ((((cfg0.win 9).blk t).view.emb (ix2 p q)) 0) k))
    (fun k => V m c main_v22 (ix2 ((((cfg0.win 9).blk t).view.emb (ix2 p q)) 0) k))
    ((((cfg0.win 9).blk t).view.emb (ix2 p q)) 1)
  refine Cert.So2.halves_congr ?_ (fun k => ?_) (fun k => ?_) (fun k => ?_) ?_
  · unfold wts
    rw [whole3 m c t, whole4 m c t, whole5 m c t, whole6 m c t, whole7 m c t, whole8 m c t]
  · show V m c main_v12 (((cfg0.win 0).blk t).view.emb (ix2 p k)) = V m c main_v12 _
    refine congrArg (V m c main_v12) (funext fun a => Fin.ext ?_)
    match a with
    | ⟨0, _⟩ => show win0_0.index t (0 : Fin 2) * 5000 + 1 * p.val = win0_9.index t (0 : Fin 2) * 5000 + 1 * p.val; omega
    | ⟨1, _⟩ => show win0_0.index t (1 : Fin 2) * 16 + 1 * k.val = k.val; omega
  · show V m c main_v14 (((cfg0.win 1).blk t).view.emb (ix2 p k)) = V m c main_v14 _
    refine congrArg (V m c main_v14) (funext fun a => Fin.ext ?_)
    match a with
    | ⟨0, _⟩ => show win0_1.index t (0 : Fin 2) * 5000 + 1 * p.val = win0_9.index t (0 : Fin 2) * 5000 + 1 * p.val; omega
    | ⟨1, _⟩ => show win0_1.index t (1 : Fin 2) * 16 + 1 * k.val = k.val; omega
  · show V m c main_v22 (((cfg0.win 2).blk t).view.emb (ix2 p k)) = V m c main_v22 _
    refine congrArg (V m c main_v22) (funext fun a => Fin.ext ?_)
    match a with
    | ⟨0, _⟩ => show win0_2.index t (0 : Fin 2) * 5000 + 1 * p.val = win0_9.index t (0 : Fin 2) * 5000 + 1 * p.val; omega
    | ⟨1, _⟩ => show win0_2.index t (1 : Fin 2) * 64 + 1 * k.val = k.val; omega
  · show q.val = win0_9.index t (1 : Fin 2) * 32 + 1 * q.val
    omega

/-! ## Every row is in some point's block -/

theorem mem_blk9 (t : Fin cfg0.N) (i : S800000x32.Idx) :
    i ∈ ((cfg0.win 9).blk t).view.set ↔ ∀ a : Fin 2, win0_9.index t a * S5000x32.size a ≤ (i a).val
      ∧ (i a).val < win0_9.index t a * S5000x32.size a + S5000x32.size a := by
  show i ∈ ((View.whole main_v23).slice (win0_9.rect t)).set ↔ _
  rw [View.set_slice_whole, Rect.mem_set_unit]
  exact Iff.rfl

theorem cover9 (i : S800000x32.Idx) :
    ∃ t : Fin cfg0.N, (cfg0.win 9).flush t = true ∧ i ∈ ((cfg0.win 9).blk t).view.set := by
  have hi0 : (i 0).val < 800000 := (i 0).isLt
  have hi1 : (i 1).val < 32 := (i 1).isLt
  have hN : grid0.N = 160 := N_0
  have ht : (i 0).val / 5000 < cfg0.N := by show (i 0).val / 5000 < grid0.N; omega
  obtain ⟨-, -, -, -, -, -, -, -, -, -, -, -, -, -, -, -, -, a90, a91⟩ := idx_facts ⟨(i 0).val / 5000, ht⟩
  refine ⟨⟨(i 0).val / 5000, ht⟩, flush0_9 _, ?_⟩
  rw [mem_blk9]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [a90]
    show (i 0).val / 5000 * 5000 ≤ (i 0).val ∧ (i 0).val < (i 0).val / 5000 * 5000 + 5000
    omega
  | ⟨1, _⟩ =>
    show win0_9.index ⟨(i 0).val / 5000, ht⟩ (1 : Fin 2) * 32 ≤ (i 1).val
      ∧ (i 1).val < win0_9.index ⟨(i 0).val / 5000, ht⟩ (1 : Fin 2) * 32 + 32
    rw [a91]
    omega

/-- The result array after the region is `G9`. -/
theorem final9 (c : Dev nD) : (dats m 0 c).arrAt 9 cfg0.N = G9 m c :=
  (dats m 0 c).arrAt_eq_of_cover 9 (G9 m c) (fun t _ => flushed_eq m c t) cover9

end Cert.KernelIdeal.Val

end
-- ==== Proof.LibScatterRows.lean ====
/-
  ROW SCATTER-ADD READ AT AN ENTRY.

  An operand of shape [N, Q], scatter indices of shape [E, 1] (one signed integer per update row: the destination
  row) and updates of shape [E, Q], with dimension numbers update_window_dims = [1], inserted_window_dims = [0],
  scatter_dims_to_operand_dims = [0], index_vector_dim = 1: update entry (e, q) lands at (idx[e, 0], q), and is dropped
  when idx[e, 0] is outside [0, N). At the ideal instance the accumulating scatter is therefore, at entry (n, q),

      x[n, q] + ∑_{e < E} (if idx[e, 0] = n then upd[e, q] else 0).

  Everything here is generic in N, E, Q; no index set is ever enumerated.
-/
import Idealize.ShloMosaic.Lib.ValueIdx
import Idealize.ShloMosaic.PureOps.Ideal

noncomputable section

open scoped BigOperators
open Idealize.ShloMosaic Idealize.ShloMosaic.ValueIdx

namespace ScatterRows

/-- The dimension numbers of a ROW scatter: operand [N, Q], scatter indices [E, 1], updates [E, Q]; the updates' axis 1
    is the window axis, the operand's axis 0 is the inserted (scattered) axis, named by the one component of the index
    vector, which lies on the scatter indices' axis 1. The well-formedness conditions are a hypothesis, so a record
    written with these four literal fields over literal shapes is this one by `rfl`. -/
abbrev rowDims (N E Q : Nat)
    (wf : ScatterDims.WF ⟨2, ![N, Q]⟩ ⟨2, ![E, 1]⟩ ⟨2, ![E, Q]⟩ [1] [0] [0] 1) :
    ScatterDims ⟨2, ![N, Q]⟩ ⟨2, ![E, 1]⟩ ⟨2, ![E, Q]⟩ where
  updateWindowDims := [1]
  insertedWindowDims := [0]
  scatterDimsToOperandDims := [0]
  indexVectorDim := 1
  wf := wf

variable {N E Q : Nat}
  (wf : ScatterDims.WF ⟨2, ![N, Q]⟩ ⟨2, ![E, 1]⟩ ⟨2, ![E, Q]⟩ [1] [0] [0] 1)

/-- On the operand's row axis the window of update index `j = (e, q)` starts at the signed integer `idx[e, 0]`. -/
theorem start_0 {w : Nat} (j : (⟨2, ![E, Q]⟩ : Shape).Idx) (idx : IVec ⟨2, ![E, 1]⟩ w) :
    (rowDims N E Q wf).start j idx 0 = (idx (ix2 (j 0) (0 : Fin 1))).toInt := by
  unfold ScatterDims.start
  rw [dif_pos (show (0 : Fin 2) ∈ (rowDims N E Q wf).scatterDimsToOperandDims from List.mem_singleton.mpr rfl)]
  have hsi : (rowDims N E Q wf).siIdx j ⟨List.idxOf (0 : Fin 2) (rowDims N E Q wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the operand's column axis, which the index vector does not name, the window starts at 0. -/
theorem start_1 {w : Nat} (j : (⟨2, ![E, Q]⟩ : Shape).Idx) (idx : IVec ⟨2, ![E, 1]⟩ w) :
    (rowDims N E Q wf).start j idx 1 = 0 := by
  unfold ScatterDims.start
  rw [dif_neg (show (1 : Fin 2) ∉ (rowDims N E Q wf).scatterDimsToOperandDims from
    (by decide : (1 : Fin 2) ∉ [(0 : Fin 2)]))]

/-- The row axis is an inserted axis: the window coordinate on it is 0. -/
theorem window_0 (j : (⟨2, ![E, Q]⟩ : Shape).Idx) : (rowDims N E Q wf).window j 0 = 0 := by
  unfold ScatterDims.window
  rw [dif_neg (show (0 : Fin 2) ∉ (rowDims N E Q wf).sKept from
    (by decide : (0 : Fin 2) ∉ (List.finRange 2).filter (· ∉ [(0 : Fin 2)])))]

/-- The column axis is the one kept axis: the window coordinate on it is the update index's column `q`. -/
theorem window_1 (j : (⟨2, ![E, Q]⟩ : Shape).Idx) : (rowDims N E Q wf).window j 1 = (j 1).val := by
  unfold ScatterDims.window
  rw [dif_pos (show (1 : Fin 2) ∈ (rowDims N E Q wf).sKept from
    (by decide : (1 : Fin 2) ∈ (List.finRange 2).filter (· ∉ [(0 : Fin 2)])))]
  rfl

/-- Update index `j = (e, q')` lands at operand entry `(n, q)` exactly when `idx[e, 0] = n` (as integers; in
    particular it is inside `[0, N)`) and `q' = q`. When `idx[e, 0]` is outside `[0, N)` the update is dropped,
    and then it equals no `n < N`. -/
theorem resultIdx?_eq_some_iff {w : Nat} (j : (⟨2, ![E, Q]⟩ : Shape).Idx) (idx : IVec ⟨2, ![E, 1]⟩ w)
    (n : Fin N) (q : Fin Q) :
    (rowDims N E Q wf).resultIdx? j idx = some (ix2 n q) ↔
      (idx (ix2 (j 0) (0 : Fin 1))).toInt = (n.val : ℤ) ∧ j 1 = q := by
  have s0 := start_0 wf j idx
  have s1 := start_1 wf j idx
  have w0 := window_0 wf j
  have w1 := window_1 wf j
  have hj1 : (j 1).val < Q := idx2_lt1 j
  have hn : n.val < N := n.isLt
  unfold ScatterDims.resultIdx?
  split
  · rename_i h
    rw [Option.some.injEq]
    have h0 := h 0
    constructor
    · intro hf
      have e0 : ((rowDims N E Q wf).start j idx 0 + ((rowDims N E Q wf).window j 0 : ℕ)).toNat = n.val :=
        congrArg (fun f => (f 0).val) hf
      have e1 : ((rowDims N E Q wf).start j idx 1 + ((rowDims N E Q wf).window j 1 : ℕ)).toNat = q.val :=
        congrArg (fun f => (f 1).val) hf
      rw [s0, w0] at e0 h0
      rw [s1, w1] at e1
      refine ⟨by omega, Fin.ext ?_⟩
      show (j 1).val = q.val
      omega
    · rintro ⟨ht, hq⟩
      funext a
      match a with
      | ⟨0, _⟩ =>
        refine Fin.ext ?_
        show ((rowDims N E Q wf).start j idx 0 + ((rowDims N E Q wf).window j 0 : ℕ)).toNat = n.val
        rw [s0, w0]; omega
      | ⟨1, _⟩ =>
        refine Fin.ext ?_
        show ((rowDims N E Q wf).start j idx 1 + ((rowDims N E Q wf).window j 1 : ℕ)).toNat = q.val
        rw [s1, w1, ← hq]
        show ((0 : ℤ) + ((j 1).val : ℕ)).toNat = (j 1).val
        omega
  · rename_i h
    constructor
    · intro hf; cases hf
    · rintro ⟨ht, hq⟩
      exfalso; apply h
      intro a
      match a with
      | ⟨0, _⟩ =>
        show 0 ≤ (rowDims N E Q wf).start j idx 0 + ((rowDims N E Q wf).window j 0 : ℕ) ∧
          (rowDims N E Q wf).start j idx 0 + ((rowDims N E Q wf).window j 0 : ℕ) < (N : ℤ)
        rw [s0, w0]; omega
      | ⟨1, _⟩ =>
        show 0 ≤ (rowDims N E Q wf).start j idx 1 + ((rowDims N E Q wf).window j 1 : ℕ) ∧
          (rowDims N E Q wf).start j idx 1 + ((rowDims N E Q wf).window j 1 : ℕ) < (Q : ℤ)
        rw [s1, w1]; omega

/-- THE ROW SCATTER-ADD AT ENTRY `(n, q)`, ideal instance: the operand's entry plus the sum, over the `E` update rows,
    of the update's entry in column `q` for the rows whose index is `n` (the others contribute 0). The sum over the
    rank-2 update indices `(e, q')` is split into rows and columns, and in each row the column sum keeps only `q' = q`. -/
theorem hostScatterAdd_rows_apply {w : Nat} (x : (⟨2, ![N, Q]⟩ : Shape).Idx → EReal) (idx : IVec ⟨2, ![E, 1]⟩ w)
    (upd : (⟨2, ![E, Q]⟩ : Shape).Idx → EReal) (n : Fin N) (q : Fin Q) :
    Ideal.hostScatterAdd (rowDims N E Q wf) x idx upd (ix2 n q)
      = x (ix2 n q) + ∑ e : Fin E,
          if (idx (ix2 e (0 : Fin 1))).toInt = (n.val : ℤ) then upd (ix2 e q) else 0 := by
  unfold Ideal.hostScatterAdd
  congr 1
  rw [Finset.sum_filter, sum_idx2]
  refine Finset.sum_congr rfl fun e _ => ?_
  have hiff : ∀ b : Fin Q, ((rowDims N E Q wf).resultIdx? (ix2 e b) idx = some (ix2 n q)) ↔
      ((idx (ix2 e (0 : Fin 1))).toInt = (n.val : ℤ) ∧ b = q) := fun b =>
    resultIdx?_eq_some_iff wf (ix2 e b) idx n q
  simp only [hiff]
  by_cases ht : (idx (ix2 e (0 : Fin 1))).toInt = (n.val : ℤ)
  · simp only [ht, true_and, if_true]
    rw [Finset.sum_ite_eq' Finset.univ q (fun b => upd (ix2 e b))]
    simp
  · simp only [ht, false_and, if_false]
    exact Finset.sum_const_zero

/-- The same for any record of dimension numbers whose four fields are the row scatter's (each hypothesis is `rfl` for
    a record written with those literal fields). -/
theorem hostScatterAdd_rows_apply_of {w : Nat} (d : ScatterDims ⟨2, ![N, Q]⟩ ⟨2, ![E, 1]⟩ ⟨2, ![E, Q]⟩)
    (h1 : d.updateWindowDims = [1]) (h2 : d.insertedWindowDims = [0]) (h3 : d.scatterDimsToOperandDims = [0])
    (h4 : d.indexVectorDim = 1)
    (x : (⟨2, ![N, Q]⟩ : Shape).Idx → EReal) (idx : IVec ⟨2, ![E, 1]⟩ w)
    (upd : (⟨2, ![E, Q]⟩ : Shape).Idx → EReal) (n : Fin N) (q : Fin Q) :
    Ideal.hostScatterAdd d x idx upd (ix2 n q)
      = x (ix2 n q) + ∑ e : Fin E,
          if (idx (ix2 e (0 : Fin 1))).toInt = (n.val : ℤ) then upd (ix2 e q) else 0 := by
  obtain ⟨uw, iw, sd, iv, wf'⟩ := d
  simp only at h1 h2 h3 h4
  subst h1 h2 h3 h4
  exact hostScatterAdd_rows_apply wf' x idx upd n q

/-- The host's accumulating float scatter, at the ideal instance, is that function: the row scatter at entry `(n, q)`. -/
theorem Host_scatterAdd_rows_apply {φ : FTy} {w : Nat} (x : FVec Ideal ⟨2, ![N, Q]⟩ φ) (idx : IVec ⟨2, ![E, 1]⟩ w)
    (upd : FVec Ideal ⟨2, ![E, Q]⟩ φ) (n : Fin N) (q : Fin Q) :
    Host.scatterAdd (F := Ideal) (rowDims N E Q wf) x idx upd (ix2 n q)
      = x (ix2 n q) + ∑ e : Fin E,
          if (idx (ix2 e (0 : Fin 1))).toInt = (n.val : ℤ) then upd (ix2 e q) else 0 :=
  hostScatterAdd_rows_apply wf x idx upd n q

/-- The same for any record of dimension numbers whose four fields are the row scatter's. -/
theorem Host_scatterAdd_rows_apply_of {φ : FTy} {w : Nat} (d : ScatterDims ⟨2, ![N, Q]⟩ ⟨2, ![E, 1]⟩ ⟨2, ![E, Q]⟩)
    (h1 : d.updateWindowDims = [1]) (h2 : d.insertedWindowDims = [0]) (h3 : d.scatterDimsToOperandDims = [0])
    (h4 : d.indexVectorDim = 1)
    (x : FVec Ideal ⟨2, ![N, Q]⟩ φ) (idx : IVec ⟨2, ![E, 1]⟩ w)
    (upd : FVec Ideal ⟨2, ![E, Q]⟩ φ) (n : Fin N) (q : Fin Q) :
    Host.scatterAdd (F := Ideal) d x idx upd (ix2 n q)
      = x (ix2 n q) + ∑ e : Fin E,
          if (idx (ix2 e (0 : Fin 1))).toInt = (n.val : ℤ) then upd (ix2 e q) else 0 :=
  hostScatterAdd_rows_apply_of d h1 h2 h3 h4 x idx upd n q

end ScatterRows

end
-- ==== Proof.KernelTail.lean ====
/-
  The host operations after the region, read at an entry.

  After the region the program splits the [800000, 32] result into its two halves of sixteen columns, adds the
  rows of each half into the rows of a zero [50000, 16] array named by the destination column (a row whose
  destination names no node is dropped), and stacks the two sums on a new last axis. So entry `(n, r, c)` of
  the program's result is the sum, over the edges whose destination is `n`, of column `r + 16 c` of the edge's
  row.
-/
import proofs.«149567_j88656714925232_2_alg».proof.KernelIdeal
import proofs.«149567_j88656714925232_2_alg».proof.Proof.Gen.KernelIdeal
import proofs.«149567_j88656714925232_2_alg».proof.Proof.So2Spec
import proofs.«149567_j88656714925232_2_alg».proof.Proof.LibScatterRows
import Idealize.ShloMosaic.Lib.Pipeline.Value
import Idealize.ShloMosaic.Lib.ValueIdx
import Idealize.ShloMosaic.PureOps.Ideal.Laws

set_option maxRecDepth 16384

noncomputable section

namespace Cert.KernelIdeal.Tail

open Idealize.ShloMosaic Idealize.ShloMosaic.ValueIdx
open Cert.KernelIdeal Cert.KernelIdeal.Facts₀ Cert.KernelIdeal.Facts

/-- One half of the result added into the nodes' rows: columns `off … off + 15` of `g`, scattered by `col`. -/
def halfSum (off : Fin 2 → Nat) (h : S800000x32.Slices off S800000x16) (g : FVec Ideal S800000x32 .f32)
    (col : IVec S800000 32) : FVec Ideal S50000x16 .f32 :=
  Host.scatterAdd (F := Ideal) scatter_S50000x16_S800000x1_S800000x16_1_0_0_1
    (broadcastInDim S50000x16 ![] bcast_S_S50000x16 (constant (F := Ideal) S_ .f32 0x00000000#32))
    (broadcastInDim S800000x1 ![0] bcast_S800000_S800000x1_0 col)
    (extractStridedSlice S800000x16 off g h)

/-- The host operations after the region as one function of the region's result `g` and the destination column. -/
def tailFn (g : FVec Ideal S800000x32 .f32) (col : IVec S800000 32) : FVec Ideal S50000x16x2 .f32 :=
  concatenate S50000x16x2 2
    [⟨S50000x16x1, broadcastInDim S50000x16x1 ![0, 1] bcast_S50000x16_S50000x16x1_0_1
        (halfSum ![0, 0] slices_S800000x32_S800000x16_0_0 g col)⟩,
     ⟨S50000x16x1, broadcastInDim S50000x16x1 ![0, 1] bcast_S50000x16_S50000x16x1_0_1
        (halfSum ![0, 16] slices_S800000x32_S800000x16_0_16 g col)⟩]
    concatenates_S50000x16x1_S50000x16x1_S50000x16x2_d2

/-- The destination of edge `e`, as the scatter reads it: the signed value of the index column's entry. -/
def dest (col : IVec S800000 32) (e : Fin 800000) : ℤ :=
  (broadcastInDim S800000x1 ![0] bcast_S800000_S800000x1_0 col (ix2 e (0 : Fin 1))).toInt

/-- A half's sum at node `n`, column `r`: the sum over the edges sent to `n` of column `off 1 + r` of the edge's row. -/
theorem halfSum_apply (off : Fin 2 → Nat) (h : S800000x32.Slices off S800000x16) (h0 : off 0 = 0) (o : Nat) (h1 : off 1 = o)
    (ho : o + 16 ≤ 32) (g : FVec Ideal S800000x32 .f32) (col : IVec S800000 32) (n : Fin 50000) (r : Fin 16) :
    halfSum off h g col (ix2 n r)
      = Cert.So2.recv (dest col) (fun e => g (ix2 e ⟨o + r.val, by have := r.isLt; omega⟩)) n.val := by
  unfold halfSum
  refine (ScatterRows.Host_scatterAdd_rows_apply_of scatter_S50000x16_S800000x1_S800000x16_1_0_0_1 rfl rfl rfl rfl
    _ _ _ n r).trans ?_
  have hz : broadcastInDim S50000x16 ![] bcast_S_S50000x16 (constant (F := Ideal) S_ .f32 0x00000000#32) (ix2 n r)
      = 0 := by
    show Ideal.ofBits .f32 0x00000000#32 = 0
    exact Ideal.ofBits_zero_f32
  rw [hz, zero_add]
  unfold Cert.So2.recv dest
  refine Finset.sum_congr rfl fun e _ => ?_
  have hs : extractStridedSlice S800000x16 off g h (ix2 e r) = g (ix2 e ⟨o + r.val, by have := r.isLt; omega⟩) :=
    extractStridedSlice_apply off g h (ix2 e r) (ix2 e ⟨o + r.val, by have := r.isLt; omega⟩) (fun a => match a with
      | ⟨0, _⟩ => by show e.val = off 0 + e.val; omega
      | ⟨1, _⟩ => by show o + r.val = off 1 + r.val; omega)
  rw [hs]

/-- Entry `(n, r, c)` of the program's result: the sum over the edges sent to `n` of column `r + 16 c` of the
    edge's row of the region's result. -/
theorem tailFn_apply (g : FVec Ideal S800000x32 .f32) (col : IVec S800000 32) (n : Fin 50000) (r : Fin 16) (c : Fin 2) :
    tailFn g col (ix3 n r c)
      = Cert.So2.recv (dest col)
          (fun e => g (ix2 e ⟨16 * c.val + r.val, by have := r.isLt; have := c.isLt; omega⟩)) n.val := by
  have hb : ∀ (x : FVec Ideal S50000x16 .f32),
      broadcastInDim S50000x16x1 ![0, 1] bcast_S50000x16_S50000x16x1_0_1 x (ix3 n r (0 : Fin 1)) = x (ix2 n r) :=
    fun x => broadcastInDim_apply ![0, 1] bcast_S50000x16_S50000x16x1_0_1 x (ix3 n r (0 : Fin 1)) (ix2 n r) (fun a => match a with
      | ⟨0, _⟩ => by show n.val = if (50000 : Nat) = 1 then 0 else n.val; rw [if_neg (by decide)]
      | ⟨1, _⟩ => by show r.val = if (16 : Nat) = 1 then 0 else r.val; rw [if_neg (by decide)])
  unfold tailFn
  match c with
  | ⟨0, _⟩ =>
    refine (concatenate_pair_apply_left (t := S50000x16x2) (s₁ := S50000x16x1) (s₂ := S50000x16x1) (2 : Fin 3) _ _ concatenates_S50000x16x1_S50000x16x1_S50000x16x2_d2
      (ix3 n r (0 : Fin 2)) rfl (ix3 n r (0 : Fin 1)) (fun b => match b with
        | ⟨0, _⟩ => rfl
        | ⟨1, _⟩ => rfl
        | ⟨2, _⟩ => rfl)).trans ?_
    rw [hb]
    refine (halfSum_apply ![0, 0] slices_S800000x32_S800000x16_0_0 rfl 0 rfl (by decide) g col n r).trans ?_
    refine congrArg (fun f => Cert.So2.recv (dest col) f n.val) (funext fun e => congrArg g ?_)
    exact congrArg (ix2 e) (Fin.ext (by show 0 + r.val = 16 * 0 + r.val; omega))
  | ⟨1, _⟩ =>
    refine (concatenate_pair_apply_right (t := S50000x16x2) (s₁ := S50000x16x1) (s₂ := S50000x16x1) (2 : Fin 3) _ _ concatenates_S50000x16x1_S50000x16x1_S50000x16x2_d2
      (ix3 n r (1 : Fin 2)) rfl rfl (ix3 n r (0 : Fin 1)) (fun b hb' => match b with
        | ⟨0, _⟩ => rfl
        | ⟨1, _⟩ => rfl
        | ⟨2, _⟩ => absurd rfl hb') rfl).trans ?_
    rw [hb]
    refine (halfSum_apply ![0, 16] slices_S800000x32_S800000x16_0_16 rfl 16 rfl (by decide) g col n r).trans ?_
    refine congrArg (fun f => Cert.So2.recv (dest col) f n.val) (funext fun e => congrArg g ?_)
    exact congrArg (ix2 e) (Fin.ext (by show 16 + r.val = 16 * 1 + r.val; omega))

/-- The program's result as a function of the weights, the destination column and the three per-edge arrays: at
    `(n, r, c)` the sum, over the edges sent to node `n`, of part `c` of component `r` of the edge's output. -/
def outOf (W : Cert.So2.Weights) (col : IVec S800000 32) (a b : FVec Ideal S800000x16 .f32)
    (s : FVec Ideal S800000x64 .f32) : S50000x16x2.Idx → EReal := fun i =>
  Cert.So2.recv (dest col)
    (fun e => Cert.So2.part W (fun k => a (ix2 e k)) (fun k => b (ix2 e k)) (fun k => s (ix2 e k)) (i 1) (i 2)) (i 0).val

end Cert.KernelIdeal.Tail

end
-- ==== Proof.KernelRun.lean ====
/-
  The kernel program's run, read at its result.

  The region leaves the [800000, 32] array of per-edge outputs (`G9`: real parts in columns 0–15, imaginary parts in
  16–31); the host operations after it add, for every node, the rows of the edges sent to that node, half by half,
  and stack the two sums. Entry `(n, r, c)` of the program's result is therefore the sum over the edges sent to `n`
  of part `c` of component `r` of the edge's output.
-/
import proofs.«149567_j88656714925232_2_alg».proof.Proof.Gen.KernelIdeal.Frame
import proofs.«149567_j88656714925232_2_alg».proof.Proof.KernelValue
import proofs.«149567_j88656714925232_2_alg».proof.Proof.KernelTail
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- What the program returns beside its first argument: at `(n, r, c)` the sum, over the edges sent to node `n`, of
    part `c` of component `r` of the edge's output. -/
def out (c : Dev nD) : S50000x16x2.Idx → EReal :=
  Tail.outOf (wts m c) (V m c main_v3) (V m c main_v12) (V m c main_v14) (V m c main_v22)

/-- Column `16 c + r` of a row of the region's result is part `c` of component `r` of that edge's output. -/
theorem G9_part (c : Dev nD) (e : Fin 800000) (r : Fin 16) (c' : Fin 2) :
    G9 m c (ix2 e ⟨16 * c'.val + r.val, by have := r.isLt; have := c'.isLt; omega⟩)
      = Cert.So2.part (wts m c) (fun k => V m c main_v12 (ix2 e k)) (fun k => V m c main_v14 (ix2 e k))
          (fun k => V m c main_v22 (ix2 e k)) r c' := by
  show Cert.So2.halves (wts m c) (fun k => V m c main_v12 (ix2 e k)) (fun k => V m c main_v14 (ix2 e k))
    (fun k => V m c main_v22 (ix2 e k)) ⟨16 * c'.val + r.val, _⟩ = _
  match c' with
  | ⟨0, _⟩ =>
    exact (Cert.So2.halves_congr rfl (fun _ => rfl) (fun _ => rfl) (fun _ => rfl)
      (by show 16 * 0 + r.val = r.val; omega)).trans ((Cert.So2.halves_lo _ _ _ _ r).trans (if_pos rfl).symm)
  | ⟨1, _⟩ =>
    exact (Cert.So2.halves_congr rfl (fun _ => rfl) (fun _ => rfl) (fun _ => rfl)
      (by show 16 * 1 + r.val = r.val + 16; omega)).trans ((Cert.So2.halves_hi _ _ _ _ r).trans (if_neg Nat.one_ne_zero).symm)

/-- The host operations after the region, applied to what the region leaves. -/
theorem tail_value (c : Dev nD) :
    Pipeline.afterTail₀ cfgs (dats m) 0 (V0 m) [hostOps1] c main_v34 = Tail.tailFn (G9 m c) (V m c main_v3) := by
  have h23 : Pipeline.withArrays (cfgs 0).spec c (V0 m c) (fun w => (dats m 0 c).arrAt w (cfgs 0).N)
      (Proc.devRef .tc main_v23) = G9 m c :=
    (Pipeline.withArrays_arr spec0 launch0.win.arr_inj c _ _ 9).trans (final9 m c)
  have h3 : Pipeline.withArrays (cfgs 0).spec c (V0 m c) (fun w => (dats m 0 c).arrAt w (cfgs 0).N)
      (Proc.devRef .tc main_v3) = V m c main_v3 :=
    Pipeline.withArrays_of_ne _ c (V0 m c) _ main_v3 (by exact (by decide : ∀ w, Pipeline.arrRef spec0 w ≠ main_v3))
  unfold Pipeline.afterTail₀
  show StableHlo.after hostOps1 _ (Proc.devRef .tc main_v34) = _
  after_results
  rw [h23, h3]
  rfl

/-- … which is `out`. -/
theorem tail_out (c : Dev nD) : Tail.tailFn (G9 m c) (V m c main_v3) = out m c := by
  funext i
  obtain ⟨n, r, c', rfl⟩ : ∃ (n : Fin 50000) (r : Fin 16) (c' : Fin 2), i = ix3 n r c' := ⟨i 0, i 1, i 2, eq_ix3 i⟩
  refine (Tail.tailFn_apply (G9 m c) (V m c main_v3) n r c').trans ?_
  show _ = Cert.So2.recv (Tail.dest (V m c main_v3))
    (fun e => Cert.So2.part (wts m c) (fun k => V m c main_v12 (ix2 e k)) (fun k => V m c main_v14 (ix2 e k))
      (fun k => V m c main_v22 (ix2 e k)) r c') n.val
  exact congrArg (fun f => Cert.So2.recv (Tail.dest (V m c main_v3)) f n.val) (funext fun e => G9_part m c e r c')

/-- The run: the result at `out`, the eleven arguments as launched. -/
theorem run : θ_run defs (onTc (τ := τ) (main (F := Ideal))) ⟨m, fun _ => 0, ρ⟩ (fun r => ∀ c : Dev nD,
      r.2.mem ((c.tc : Thread nD τ).loc main_v34) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨((h c).2 main_v34 (Pipeline.mem_restRefs_of main_v34 (by decide) (by decide))).trans
        ((tail_value m c).trans (tail_out m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c)))⟩)
    (run_main m ρ)

end Cert.KernelIdeal.Val

end
-- ==== Proof.RefValue.lean ====
/-
  THE REFERENCE PROGRAM'S RESULT READ AT AN ENTRY.

  For every edge `e` the program forms the complex feature row `a + i b` (sixteen components) and the row `s` of
  sixty-four scalars, applies the first complex linear map, multiplies by the gate `z * logistic z` at
  `z = (s · ws) h + bs h`, applies the second complex linear map, interleaves the real and imaginary output rows
  into one row of thirty-two (column `2 r + c`), and adds that row into the row of the edge's destination node.
  Read at node `n`, component `r`, part `c`, the result is the sum over the edges whose destination is `n` of
  that edge's output part. The feature rows, the scalar row and the destination column are kept as the program
  computes them; only the arithmetic after them is read.
-/
import proofs.«149567_j88656714925232_2_alg».proof.Proof.Gen.ReferenceIdeal.Read
import proofs.«149567_j88656714925232_2_alg».proof.Proof.So2Spec
import proofs.«149567_j88656714925232_2_alg».proof.Proof.LibScatterRows
import Idealize.ShloMosaic.Lib.Pipeline.Value
import Idealize.ShloMosaic.PureOps.Ideal.Laws

noncomputable section

open scoped BigOperators
open Idealize.ShloMosaic Idealize.ShloMosaic.ValueIdx Cert.ReferenceIdeal Cert.ReferenceIdeal.Read

namespace Cert.ReferenceIdeal.RefValue

/-! ## Where each operation reads its operands, at indices written by coordinates -/

private theorem lidx23 (e : Fin 800000) (h : Fin 48) (k : Fin 16) : lidx_main_v23 (ix2 e h) k = ix2 e k := by
  funext a; match a with | ⟨0, _⟩ => rfl | ⟨1, _⟩ => rfl
private theorem ridx23 (e : Fin 800000) (h : Fin 48) (k : Fin 16) : ridx_main_v23 (ix2 e h) k = ix2 k h := by
  funext a; match a with | ⟨0, _⟩ => rfl | ⟨1, _⟩ => rfl
private theorem lidx24 (e : Fin 800000) (h : Fin 48) (k : Fin 16) : lidx_main_v24 (ix2 e h) k = ix2 e k := by
  funext a; match a with | ⟨0, _⟩ => rfl | ⟨1, _⟩ => rfl
private theorem ridx24 (e : Fin 800000) (h : Fin 48) (k : Fin 16) : ridx_main_v24 (ix2 e h) k = ix2 k h := by
  funext a; match a with | ⟨0, _⟩ => rfl | ⟨1, _⟩ => rfl
private theorem lidx26 (e : Fin 800000) (h : Fin 48) (k : Fin 16) : lidx_main_v26 (ix2 e h) k = ix2 e k := by
  funext a; match a with | ⟨0, _⟩ => rfl | ⟨1, _⟩ => rfl
private theorem ridx26 (e : Fin 800000) (h : Fin 48) (k : Fin 16) : ridx_main_v26 (ix2 e h) k = ix2 k h := by
  funext a; match a with | ⟨0, _⟩ => rfl | ⟨1, _⟩ => rfl
private theorem lidx27 (e : Fin 800000) (h : Fin 48) (k : Fin 16) : lidx_main_v27 (ix2 e h) k = ix2 e k := by
  funext a; match a with | ⟨0, _⟩ => rfl | ⟨1, _⟩ => rfl
private theorem ridx27 (e : Fin 800000) (h : Fin 48) (k : Fin 16) : ridx_main_v27 (ix2 e h) k = ix2 k h := by
  funext a; match a with | ⟨0, _⟩ => rfl | ⟨1, _⟩ => rfl
private theorem lidx29 (e : Fin 800000) (h : Fin 48) (k : Fin 64) : lidx_main_v29 (ix2 e h) k = ix2 e k := by
  funext a; match a with | ⟨0, _⟩ => rfl | ⟨1, _⟩ => rfl
private theorem ridx29 (e : Fin 800000) (h : Fin 48) (k : Fin 64) : ridx_main_v29 (ix2 e h) k = ix2 k h := by
  funext a; match a with | ⟨0, _⟩ => rfl | ⟨1, _⟩ => rfl
private theorem lidx36 (e : Fin 800000) (r : Fin 16) (k : Fin 48) : lidx_main_v36 (ix2 e r) k = ix2 e k := by
  funext a; match a with | ⟨0, _⟩ => rfl | ⟨1, _⟩ => rfl
private theorem ridx36 (e : Fin 800000) (r : Fin 16) (k : Fin 48) : ridx_main_v36 (ix2 e r) k = ix2 k r := by
  funext a; match a with | ⟨0, _⟩ => rfl | ⟨1, _⟩ => rfl
private theorem lidx37 (e : Fin 800000) (r : Fin 16) (k : Fin 48) : lidx_main_v37 (ix2 e r) k = ix2 e k := by
  funext a; match a with | ⟨0, _⟩ => rfl | ⟨1, _⟩ => rfl
private theorem ridx37 (e : Fin 800000) (r : Fin 16) (k : Fin 48) : ridx_main_v37 (ix2 e r) k = ix2 k r := by
  funext a; match a with | ⟨0, _⟩ => rfl | ⟨1, _⟩ => rfl
private theorem lidx39 (e : Fin 800000) (r : Fin 16) (k : Fin 48) : lidx_main_v39 (ix2 e r) k = ix2 e k := by
  funext a; match a with | ⟨0, _⟩ => rfl | ⟨1, _⟩ => rfl
private theorem ridx39 (e : Fin 800000) (r : Fin 16) (k : Fin 48) : ridx_main_v39 (ix2 e r) k = ix2 k r := by
  funext a; match a with | ⟨0, _⟩ => rfl | ⟨1, _⟩ => rfl
private theorem lidx40 (e : Fin 800000) (r : Fin 16) (k : Fin 48) : lidx_main_v40 (ix2 e r) k = ix2 e k := by
  funext a; match a with | ⟨0, _⟩ => rfl | ⟨1, _⟩ => rfl
private theorem ridx40 (e : Fin 800000) (r : Fin 16) (k : Fin 48) : ridx_main_v40 (ix2 e r) k = ix2 k r := by
  funext a; match a with | ⟨0, _⟩ => rfl | ⟨1, _⟩ => rfl

private theorem idx31 (e : Fin 800000) (h : Fin 48) : idx_main_v31 (ix2 e h) = ix2 (0 : Fin 1) h := by
  funext a; match a with | ⟨0, _⟩ => rfl | ⟨1, _⟩ => rfl
private theorem idx30 (h : Fin 48) : idx_main_v30 (ix2 (0 : Fin 1) h) = ix1 h := by
  funext a; match a with | ⟨0, _⟩ => rfl
private theorem idx42 (e : Fin 800000) (r : Fin 16) (z : Fin 1) : idx_main_v42 (ix3 e r z) = ix2 e r := by
  funext a; match a with | ⟨0, _⟩ => rfl | ⟨1, _⟩ => rfl
private theorem idx43 (e : Fin 800000) (r : Fin 16) (z : Fin 1) : idx_main_v43 (ix3 e r z) = ix2 e r := by
  funext a; match a with | ⟨0, _⟩ => rfl | ⟨1, _⟩ => rfl

/-- Column `2 r + c` of a row of thirty-two: component `r`, part `c`. -/
abbrev col (r : Fin 16) (c : Fin 2) : Fin 32 := ⟨2 * r.val + c.val, by have := r.isLt; have := c.isLt; omega⟩

/-- Row-major: entry `(e, 2 r + c)` of a `[E, 32]` array is entry `(e, r, c)` of the same data as `[E, 16, 2]`. -/
private theorem idx45 (e : Fin 800000) (r : Fin 16) (c : Fin 2) : idx_main_v45 (ix2 e (col r c)) = ix3 e r c := by
  have hr := r.isLt; have hc := c.isLt; have he := e.isLt
  funext a
  match a with
  | ⟨0, _⟩ => exact Fin.ext (by show (e.val * 32 + (2 * r.val + c.val)) / 32 = e.val; omega)
  | ⟨1, _⟩ => exact Fin.ext (by show (e.val * 32 + (2 * r.val + c.val)) / 2 % 16 = r.val; omega)
  | ⟨2, _⟩ => exact Fin.ext (by show (e.val * 32 + (2 * r.val + c.val)) % 2 = c.val; omega)

/-- Row-major: entry `(n, r, c)` of a `[N, 16, 2]` array is entry `(n, 2 r + c)` of the same data as `[N, 32]`. -/
private theorem idx49 (n : Fin 50000) (r : Fin 16) (c : Fin 2) : idx_main_v49 (ix3 n r c) = ix2 n (col r c) := by
  have hr := r.isLt; have hc := c.isLt; have hn := n.isLt
  funext a
  match a with
  | ⟨0, _⟩ => exact Fin.ext (by show ((n.val * 16 + r.val) * 2 + c.val) / 32 = n.val; omega)
  | ⟨1, _⟩ => exact Fin.ext (by show ((n.val * 16 + r.val) * 2 + c.val) % 32 = 2 * r.val + c.val; omega)

/-! ## The literal one, and the logistic function as the program spells it -/

/-- The single-precision word `0x3F800000` is the number one. -/
private theorem ofBits_one_f32 : Ideal.ofBits .f32 0x3F800000#32 = 1 := by
  simp [Ideal.ofBits, Ideal.ieee]
  rw [← EReal.coe_mul, ← EReal.coe_one]
  congr 1
  norm_num

/-- `z * (1 / (1 + exp (-z)))` is `z * logistic z`. -/
private theorem silu_stage (z : Ideal .f32) :
    FloatOps.mulf z (FloatOps.hostDivf (FloatOps.ofBits .f32 0x3F800000#32 : Ideal .f32)
      (FloatOps.addf (FloatOps.ofBits .f32 0x3F800000#32 : Ideal .f32) (FloatOps.hostUnary .exp (FloatOps.hostNegf z))))
      = z * Ideal.logistic z := by
  rw [Ideal.mulf_def, Ideal.hostDivf_def, Ideal.addf_def, Ideal.hostUnary_exp_def, Ideal.hostNegf_def, Ideal.negf_def,
    Ideal.ofBits_def, ofBits_one_f32]
  rfl

variable (x0 : (⟨S50000x32, .f32⟩ : BufTy).Contents (Elt Ideal)) (x1 : (⟨S50000x16x2, .f32⟩ : BufTy).Contents (Elt Ideal))
    (x2 : (⟨S2x800000, .i32⟩ : BufTy).Contents (Elt Ideal)) (x3 : (⟨S800000x32, .f32⟩ : BufTy).Contents (Elt Ideal))
    (x5 x6 : (⟨S16x48, .f32⟩ : BufTy).Contents (Elt Ideal)) (x7 x8 : (⟨S48x16, .f32⟩ : BufTy).Contents (Elt Ideal))
    (x9 : (⟨S64x48, .f32⟩ : BufTy).Contents (Elt Ideal)) (x10 : (⟨S48, .f32⟩ : BufTy).Contents (Elt Ideal))

/-! ## The first complex product and the gate, at edge `e`, hidden component `h` -/

/-- `(a · wr1) h`. -/
theorem v23_at (e : Fin 800000) (h : Fin 48) :
    val_main_v23 (F := Ideal) x1 x2 x5 (ix2 e h) = Cert.So2.rowMul (fun k => val_main_v20 (F := Ideal) x1 x2 (ix2 e k)) x5 h := by
  rw [val_main_v23_apply]; unfold Cert.So2.rowMul
  refine Finset.sum_congr rfl fun k _ => ?_
  rw [lidx23, ridx23]
/-- `(b · wi1) h`. -/
theorem v24_at (e : Fin 800000) (h : Fin 48) :
    val_main_v24 (F := Ideal) x1 x2 x6 (ix2 e h) = Cert.So2.rowMul (fun k => val_main_v22 (F := Ideal) x1 x2 (ix2 e k)) x6 h := by
  rw [val_main_v24_apply]; unfold Cert.So2.rowMul
  refine Finset.sum_congr rfl fun k _ => ?_
  rw [lidx24, ridx24]
/-- `(a · wi1) h`. -/
theorem v26_at (e : Fin 800000) (h : Fin 48) :
    val_main_v26 (F := Ideal) x1 x2 x6 (ix2 e h) = Cert.So2.rowMul (fun k => val_main_v20 (F := Ideal) x1 x2 (ix2 e k)) x6 h := by
  rw [val_main_v26_apply]; unfold Cert.So2.rowMul
  refine Finset.sum_congr rfl fun k _ => ?_
  rw [lidx26, ridx26]
/-- `(b · wr1) h`. -/
theorem v27_at (e : Fin 800000) (h : Fin 48) :
    val_main_v27 (F := Ideal) x1 x2 x5 (ix2 e h) = Cert.So2.rowMul (fun k => val_main_v22 (F := Ideal) x1 x2 (ix2 e k)) x5 h := by
  rw [val_main_v27_apply]; unfold Cert.So2.rowMul
  refine Finset.sum_congr rfl fun k _ => ?_
  rw [lidx27, ridx27]
/-- `(s · ws) h`. -/
theorem v29_at (e : Fin 800000) (h : Fin 48) :
    val_main_v29 (F := Ideal) x0 x2 x3 x9 (ix2 e h) = Cert.So2.rowMul (fun k => val_main_v18 (F := Ideal) x0 x2 x3 (ix2 e k)) x9 h := by
  rw [val_main_v29_apply]; unfold Cert.So2.rowMul
  refine Finset.sum_congr rfl fun k _ => ?_
  rw [lidx29, ridx29]
/-- The bias row broadcast over the edges: `bs h`. -/
theorem v31_at (e : Fin 800000) (h : Fin 48) : val_main_v31 (F := Ideal) x10 (ix2 e h) = x10 (ix1 h) := by
  rw [val_main_v31_apply, idx31, val_main_v30_apply, idx30]
/-- The gate's argument `z = (s · ws) h + bs h`. -/
theorem v32_at (e : Fin 800000) (h : Fin 48) :
    val_main_v32 (F := Ideal) x0 x2 x3 x9 x10 (ix2 e h) = Cert.So2.rowMul (fun k => val_main_v18 (F := Ideal) x0 x2 x3 (ix2 e k)) x9 h + x10 (ix1 h) := by
  rw [val_main_v32_apply, v29_at, v31_at]; rfl
/-- The gate `z * logistic z`: the program negates, exponentiates, adds one, divides one by that, and multiplies by `z`. -/
theorem v33_at (e : Fin 800000) (h : Fin 48) :
    val_main_v33 (F := Ideal) x0 x2 x3 x9 x10 (ix2 e h) = Cert.So2.gate (⟨x5, x6, x7, x8, x9, x10⟩ : Cert.So2.Weights) (fun k => val_main_v18 (F := Ideal) x0 x2 x3 (ix2 e k)) h := by
  rw [val_main_v33_apply, val_main_call0_v5_apply, val_main_call0_v4_apply, val_main_call0_cst_0_apply,
    val_main_call0_v3_apply, val_main_call0_v2_apply, val_main_call0_cst_apply, val_main_call0_v1_apply,
    val_main_call0_v0_apply, v32_at]
  exact silu_stage _
/-- Real part of the gated hidden row. -/
theorem v34_at (e : Fin 800000) (h : Fin 48) :
    val_main_v34 (F := Ideal) x0 x1 x2 x3 x5 x6 x9 x10 (ix2 e h) = Cert.So2.hidRe (⟨x5, x6, x7, x8, x9, x10⟩ : Cert.So2.Weights) (fun k => val_main_v20 (F := Ideal) x1 x2 (ix2 e k)) (fun k => val_main_v22 (F := Ideal) x1 x2 (ix2 e k)) (fun k => val_main_v18 (F := Ideal) x0 x2 x3 (ix2 e k)) h := by
  rw [val_main_v34_apply, val_main_v25_apply, v23_at, v24_at, v33_at]; rfl
/-- Imaginary part of the gated hidden row. -/
theorem v35_at (e : Fin 800000) (h : Fin 48) :
    val_main_v35 (F := Ideal) x0 x1 x2 x3 x5 x6 x9 x10 (ix2 e h) = Cert.So2.hidIm (⟨x5, x6, x7, x8, x9, x10⟩ : Cert.So2.Weights) (fun k => val_main_v20 (F := Ideal) x1 x2 (ix2 e k)) (fun k => val_main_v22 (F := Ideal) x1 x2 (ix2 e k)) (fun k => val_main_v18 (F := Ideal) x0 x2 x3 (ix2 e k)) h := by
  rw [val_main_v35_apply, val_main_v28_apply, v26_at, v27_at, v33_at]; rfl

/-! ## The second complex product, at edge `e`, output component `r` -/

/-- `(hidRe · wr2) r`. -/
theorem v36_at (e : Fin 800000) (r : Fin 16) :
    val_main_v36 (F := Ideal) x0 x1 x2 x3 x5 x6 x7 x9 x10 (ix2 e r)
      = Cert.So2.rowMul (Cert.So2.hidRe (⟨x5, x6, x7, x8, x9, x10⟩ : Cert.So2.Weights) (fun k => val_main_v20 (F := Ideal) x1 x2 (ix2 e k)) (fun k => val_main_v22 (F := Ideal) x1 x2 (ix2 e k)) (fun k => val_main_v18 (F := Ideal) x0 x2 x3 (ix2 e k))) x7 r := by
  rw [val_main_v36_apply]; unfold Cert.So2.rowMul
  refine Finset.sum_congr rfl fun k _ => ?_
  rw [lidx36, ridx36, v34_at]
/-- `(hidIm · wi2) r`. -/
theorem v37_at (e : Fin 800000) (r : Fin 16) :
    val_main_v37 (F := Ideal) x0 x1 x2 x3 x5 x6 x8 x9 x10 (ix2 e r)
      = Cert.So2.rowMul (Cert.So2.hidIm (⟨x5, x6, x7, x8, x9, x10⟩ : Cert.So2.Weights) (fun k => val_main_v20 (F := Ideal) x1 x2 (ix2 e k)) (fun k => val_main_v22 (F := Ideal) x1 x2 (ix2 e k)) (fun k => val_main_v18 (F := Ideal) x0 x2 x3 (ix2 e k))) x8 r := by
  rw [val_main_v37_apply]; unfold Cert.So2.rowMul
  refine Finset.sum_congr rfl fun k _ => ?_
  rw [lidx37, ridx37, v35_at]
/-- `(hidRe · wi2) r`. -/
theorem v39_at (e : Fin 800000) (r : Fin 16) :
    val_main_v39 (F := Ideal) x0 x1 x2 x3 x5 x6 x8 x9 x10 (ix2 e r)
      = Cert.So2.rowMul (Cert.So2.hidRe (⟨x5, x6, x7, x8, x9, x10⟩ : Cert.So2.Weights) (fun k => val_main_v20 (F := Ideal) x1 x2 (ix2 e k)) (fun k => val_main_v22 (F := Ideal) x1 x2 (ix2 e k)) (fun k => val_main_v18 (F := Ideal) x0 x2 x3 (ix2 e k))) x8 r := by
  rw [val_main_v39_apply]; unfold Cert.So2.rowMul
  refine Finset.sum_congr rfl fun k _ => ?_
  rw [lidx39, ridx39, v34_at]
/-- `(hidIm · wr2) r`. -/
theorem v40_at (e : Fin 800000) (r : Fin 16) :
    val_main_v40 (F := Ideal) x0 x1 x2 x3 x5 x6 x7 x9 x10 (ix2 e r)
      = Cert.So2.rowMul (Cert.So2.hidIm (⟨x5, x6, x7, x8, x9, x10⟩ : Cert.So2.Weights) (fun k => val_main_v20 (F := Ideal) x1 x2 (ix2 e k)) (fun k => val_main_v22 (F := Ideal) x1 x2 (ix2 e k)) (fun k => val_main_v18 (F := Ideal) x0 x2 x3 (ix2 e k))) x7 r := by
  rw [val_main_v40_apply]; unfold Cert.So2.rowMul
  refine Finset.sum_congr rfl fun k _ => ?_
  rw [lidx40, ridx40, v35_at]
/-- Real part of the edge's output row. -/
theorem v38_at (e : Fin 800000) (r : Fin 16) :
    val_main_v38 (F := Ideal) x0 x1 x2 x3 x5 x6 x7 x8 x9 x10 (ix2 e r) = Cert.So2.outRe (⟨x5, x6, x7, x8, x9, x10⟩ : Cert.So2.Weights) (fun k => val_main_v20 (F := Ideal) x1 x2 (ix2 e k)) (fun k => val_main_v22 (F := Ideal) x1 x2 (ix2 e k)) (fun k => val_main_v18 (F := Ideal) x0 x2 x3 (ix2 e k)) r := by
  rw [val_main_v38_apply, v36_at, v37_at]; rfl
/-- Imaginary part of the edge's output row. -/
theorem v41_at (e : Fin 800000) (r : Fin 16) :
    val_main_v41 (F := Ideal) x0 x1 x2 x3 x5 x6 x7 x8 x9 x10 (ix2 e r) = Cert.So2.outIm (⟨x5, x6, x7, x8, x9, x10⟩ : Cert.So2.Weights) (fun k => val_main_v20 (F := Ideal) x1 x2 (ix2 e k)) (fun k => val_main_v22 (F := Ideal) x1 x2 (ix2 e k)) (fun k => val_main_v18 (F := Ideal) x0 x2 x3 (ix2 e k)) r := by
  rw [val_main_v41_apply, v39_at, v40_at]; rfl

/-! ## The two parts interleaved -/

/-- Joining the real and the imaginary rows along a last axis of size two: entry `(e, r, c)` is part `c` of component `r`. -/
theorem v44_at (e : Fin 800000) (r : Fin 16) (c : Fin 2) :
    val_main_v44 (F := Ideal) x0 x1 x2 x3 x5 x6 x7 x8 x9 x10 (ix3 e r c) = Cert.So2.part (⟨x5, x6, x7, x8, x9, x10⟩ : Cert.So2.Weights) (fun k => val_main_v20 (F := Ideal) x1 x2 (ix2 e k)) (fun k => val_main_v22 (F := Ideal) x1 x2 (ix2 e k)) (fun k => val_main_v18 (F := Ideal) x0 x2 x3 (ix2 e k)) r c := by
  unfold val_main_v44 Cert.So2.part
  match c with
  | ⟨0, _⟩ =>
    refine Eq.trans (concatenate_pair_apply_left (t := S800000x16x2) (s₁ := S800000x16x1) (s₂ := S800000x16x1) _ _ _ _ _ rfl
      (ix3 e r (0 : Fin 1)) (fun b => ?_)) ?_
    · match b with
      | ⟨0, _⟩ => rfl
      | ⟨1, _⟩ => rfl
      | ⟨2, _⟩ => rfl
    · rw [val_main_v42_apply, idx42, v38_at]; exact (if_pos rfl).symm
  | ⟨1, _⟩ =>
    refine Eq.trans (concatenate_pair_apply_right (t := S800000x16x2) (s₁ := S800000x16x1) (s₂ := S800000x16x1) _ _ _ _ _ rfl rfl
      (ix3 e r (0 : Fin 1)) (fun b hb => ?_) rfl) ?_
    · match b with
      | ⟨0, _⟩ => rfl
      | ⟨1, _⟩ => rfl
      | ⟨2, _⟩ => exact absurd rfl hb
    · rw [val_main_v43_apply, idx43, v41_at]; exact (if_neg Nat.one_ne_zero).symm

/-- The same data as rows of thirty-two: column `2 r + c` is part `c` of component `r`. -/
theorem v45_at (e : Fin 800000) (r : Fin 16) (c : Fin 2) :
    val_main_v45 (F := Ideal) x0 x1 x2 x3 x5 x6 x7 x8 x9 x10 (ix2 e (col r c)) = Cert.So2.part (⟨x5, x6, x7, x8, x9, x10⟩ : Cert.So2.Weights) (fun k => val_main_v20 (F := Ideal) x1 x2 (ix2 e k)) (fun k => val_main_v22 (F := Ideal) x1 x2 (ix2 e k)) (fun k => val_main_v18 (F := Ideal) x0 x2 x3 (ix2 e k)) r c := by
  rw [val_main_v45_apply, idx45, v44_at]

end Cert.ReferenceIdeal.RefValue

namespace Cert.ReferenceIdeal.RefValue

/-- THE REFERENCE AT NODE `n`, COMPONENT `r`, PART `c`: the sum, over the edges whose destination index is `n`, of part
    `c` of component `r` of the edge's output. The program scatter-adds the edges' rows of thirty-two into zeros at
    their destination rows and reads the result as `[N, 16, 2]`. -/
theorem ref_apply (x0 : (⟨S50000x32, .f32⟩ : BufTy).Contents (Elt Ideal)) (x1 : (⟨S50000x16x2, .f32⟩ : BufTy).Contents (Elt Ideal))
    (x2 : (⟨S2x800000, .i32⟩ : BufTy).Contents (Elt Ideal)) (x3 : (⟨S800000x32, .f32⟩ : BufTy).Contents (Elt Ideal))
    (x5 x6 : (⟨S16x48, .f32⟩ : BufTy).Contents (Elt Ideal)) (x7 x8 : (⟨S48x16, .f32⟩ : BufTy).Contents (Elt Ideal))
    (x9 : (⟨S64x48, .f32⟩ : BufTy).Contents (Elt Ideal)) (x10 : (⟨S48, .f32⟩ : BufTy).Contents (Elt Ideal))
    (n : Fin 50000) (r : Fin 16) (c : Fin 2) :
    val_main_v49 (F := Ideal) x0 x1 x2 x3 x5 x6 x7 x8 x9 x10 (ix3 n r c)
      = Cert.So2.recv (fun e : Fin 800000 => (val_main_v47 (F := Ideal) x2 (ix2 e (0 : Fin 1))).toInt)
          (fun e => Cert.So2.part (⟨x5, x6, x7, x8, x9, x10⟩ : Cert.So2.Weights) (fun k => val_main_v20 (F := Ideal) x1 x2 (ix2 e k)) (fun k => val_main_v22 (F := Ideal) x1 x2 (ix2 e k)) (fun k => val_main_v18 (F := Ideal) x0 x2 x3 (ix2 e k)) r c) n.val := by
  rw [val_main_v49_apply, idx49]
  unfold val_main_v48
  refine (ScatterRows.Host_scatterAdd_rows_apply_of (φ := .f32) scatter_S50000x32_S800000x1_S800000x32_1_0_0_1
    rfl rfl rfl rfl _ _ _ n (col r c)).trans ?_
  rw [val_main_v46_apply, val_main_cst_apply, Ideal.ofBits_def, Ideal.ofBits_zero_f32, zero_add]
  unfold Cert.So2.recv
  refine Finset.sum_congr rfl fun e _ => ?_
  rw [v45_at]

end Cert.ReferenceIdeal.RefValue

end
-- ==== Proof.Bridge.lean ====
/-
  The two programs compute one function of the arguments.

  Before the region the kernel's program prepares, by the same host operations as the reference, the three per-edge
  arrays (the real and the imaginary feature rows of each edge's source node, and the sixty-four scalars of the
  edge) and the destination column; these four arrays are never opened here — they are the same terms of the
  arguments on both sides. The kernel's program then returns, at `(n, r, c)`, the sum over the edges sent to node
  `n` of part `c` of component `r` of the edge's output (the kernel's run, read); the reference returns the same sum
  (the reference's run, read). The first result of both is the first argument, untouched.
-/
import proofs.«149567_j88656714925232_2_alg».proof.Defs
import proofs.«149567_j88656714925232_2_alg».proof.Proof.KernelRun
import proofs.«149567_j88656714925232_2_alg».proof.Proof.RefValue
import proofs.«149567_j88656714925232_2_alg».proof.Proof.Gen.ReferenceIdeal.Run
import proofs.«149567_j88656714925232_2_alg».proof.Proof.Gen.ReferenceIdeal.Read
import proofs.«149567_j88656714925232_2_alg».proof.Proof.Gen.Pre_finite_inputs
import Idealize.ShloMosaic.Lib.StableHlo.Run

set_option maxRecDepth 16384

noncomputable section

namespace Cert.Proof.Bridge

open Idealize.ShloMosaic Idealize.ShloMosaic.TcCoe Idealize.ShloMosaic.ValueIdx Idealize.SL.Sem
open Idealize.ShloMosaic.StableHlo

/-! ## The reference's result is the kernel's function of the prepared arrays -/

section Pure
open Cert.ReferenceIdeal Cert.ReferenceIdeal.Read

/-- The reference's result, as the kernel program's result function of the four prepared arrays. -/
theorem ref_eq_outOf (x0 : (⟨S50000x32, .f32⟩ : BufTy).Contents (Elt Ideal)) (x1 : (⟨S50000x16x2, .f32⟩ : BufTy).Contents (Elt Ideal))
    (x2 : (⟨S2x800000, .i32⟩ : BufTy).Contents (Elt Ideal)) (x3 : (⟨S800000x32, .f32⟩ : BufTy).Contents (Elt Ideal))
    (x5 x6 : (⟨S16x48, .f32⟩ : BufTy).Contents (Elt Ideal)) (x7 x8 : (⟨S48x16, .f32⟩ : BufTy).Contents (Elt Ideal))
    (x9 : (⟨S64x48, .f32⟩ : BufTy).Contents (Elt Ideal)) (x10 : (⟨S48, .f32⟩ : BufTy).Contents (Elt Ideal)) :
    val_main_v49 (F := Ideal) x0 x1 x2 x3 x5 x6 x7 x8 x9 x10
      = Cert.KernelIdeal.Tail.outOf ⟨x5, x6, x7, x8, x9, x10⟩ (val_main_v3 (F := Ideal) x2)
          (val_main_v20 (F := Ideal) x1 x2) (val_main_v22 (F := Ideal) x1 x2) (val_main_v18 (F := Ideal) x0 x2 x3) := by
  funext i
  obtain ⟨n, r, c, rfl⟩ : ∃ (n : Fin 50000) (r : Fin 16) (c : Fin 2), i = ix3 n r c := ⟨i 0, i 1, i 2, eq_ix3 i⟩
  exact Cert.ReferenceIdeal.RefValue.ref_apply x0 x1 x2 x3 x5 x6 x7 x8 x9 x10 n r c

end Pure

/-! ## The arrays the region finds are the reference's stages of the same arguments -/

section Prefix
open Cert.KernelIdeal Cert.KernelIdeal.Gen

variable (m : (ℓ : Loc nD τ sig) → Buf (Elt Ideal) ℓ)

set_option maxHeartbeats 1000000 in
theorem V_v3 (c : Dev nD) :
    V m c main_v3 = Cert.ReferenceIdeal.Read.val_main_v3 (F := Ideal) (m ((c.tc : Thread nD τ).loc main_arg2)) := by
  show StableHlo.after hostOps0 (fun b => m (c, b)) (Proc.devRef .tc main_v3) = _
  after_results
  rfl

set_option maxHeartbeats 1000000 in
theorem V_v12 (c : Dev nD) :
    V m c main_v12 = Cert.ReferenceIdeal.Read.val_main_v20 (F := Ideal) (m ((c.tc : Thread nD τ).loc main_arg1))
      (m ((c.tc : Thread nD τ).loc main_arg2)) := by
  show StableHlo.after hostOps0 (fun b => m (c, b)) (Proc.devRef .tc main_v12) = _
  after_results
  rfl

set_option maxHeartbeats 1000000 in
theorem V_v14 (c : Dev nD) :
    V m c main_v14 = Cert.ReferenceIdeal.Read.val_main_v22 (F := Ideal) (m ((c.tc : Thread nD τ).loc main_arg1))
      (m ((c.tc : Thread nD τ).loc main_arg2)) := by
  show StableHlo.after hostOps0 (fun b => m (c, b)) (Proc.devRef .tc main_v14) = _
  after_results
  rfl

set_option maxHeartbeats 2000000 in
theorem V_v22 (c : Dev nD) :
    V m c main_v22 = Cert.ReferenceIdeal.Read.val_main_v18 (F := Ideal) (m ((c.tc : Thread nD τ).loc main_arg0))
      (m ((c.tc : Thread nD τ).loc main_arg2)) (m ((c.tc : Thread nD τ).loc main_arg3)) := by
  show StableHlo.after hostOps0 (fun b => m (c, b)) (Proc.devRef .tc main_v22) = _
  after_results
  rfl

/-- The kernel program's result is the reference's stage of the kernel's own arguments. -/
theorem out_eq (c : Dev nD) :
    Cert.KernelIdeal.Val.out m c = Cert.ReferenceIdeal.Read.val_main_v49 (F := Ideal)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg5)) (m ((c.tc : Thread nD τ).loc main_arg6))
      (m ((c.tc : Thread nD τ).loc main_arg7)) (m ((c.tc : Thread nD τ).loc main_arg8))
      (m ((c.tc : Thread nD τ).loc main_arg9)) (m ((c.tc : Thread nD τ).loc main_arg10)) := by
  rw [ref_eq_outOf]
  unfold Cert.KernelIdeal.Val.out Cert.KernelIdeal.Val.wts
  rw [V_v3 m c, V_v12 m c, V_v14 m c, V_v22 m c, V_main_arg5 m c, V_main_arg6 m c, V_main_arg7 m c, V_main_arg8 m c,
    V_main_arg9 m c, V_main_arg10 m c]

end Prefix

/-! ## The claim -/

theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.KernelIdeal.Val.out m c, ?_, ?_⟩
  · exact (θ_run Cert.KernelIdeal.defs _ _).mono (fun r h c => ⟨(h c).2.1, (h c).1, (h c).2⟩)
      (Cert.KernelIdeal.Val.run m ρ)
  · refine (θ_run Cert.ReferenceIdeal.defs _ _).mono (fun r h c => ⟨(h c).1.trans (hagree c).1, (h c).2.1.trans ?_, (h c).2.2⟩)
      (Cert.ReferenceIdeal.Value.run (F := Ideal) m' ρ')
    rw [Cert.ReferenceIdeal.Read.val_main_v49_eq, (hagree c).1, (hagree c).2.1, (hagree c).2.2.1, (hagree c).2.2.2.1,
      (hagree c).2.2.2.2.2.1, (hagree c).2.2.2.2.2.2.1, (hagree c).2.2.2.2.2.2.2.1, (hagree c).2.2.2.2.2.2.2.2.1,
      (hagree c).2.2.2.2.2.2.2.2.2.1, (hagree c).2.2.2.2.2.2.2.2.2.2]
    exact (out_eq m c).symm

end Cert.Proof.Bridge

end
-- ==== Proof.lean ====
/-
  The certificate of one SO(2)-equivariant message-passing layer: a Pallas kernel applying the per-edge complex
  MLP, with gather before it and two scatter-adds after it on the host, against its plain jnp reference.

  * The three frames: the kernel's program (at the word level and idealized) by its generated frame certificate, the
    reference by its generated run.
  * The idealization rewrote nothing, so there is nothing to preserve.
  * On the extended reals both programs return, beside their first argument, the array whose entry `(n, r, c)` is the
    sum, over the edges whose destination is node `n`, of part `c` (real or imaginary) of component `r` of the edge's
    output `W₂ · (silu(s · ws + bs) ⊙ (W₁ · (a + i b)))`. The kernel tiles the edges in blocks of 5000 rows, stores the
    real parts and the imaginary parts in two halves of a row and sums each half by destination; the reference
    interleaves them and sums once. A sum over the edges sent to a node does not depend on that layout
    (Proof/Bridge.lean).
-/
import proofs.«149567_j88656714925232_2_alg».proof.Defs
import proofs.«149567_j88656714925232_2_alg».proof.Proof.Gen.Kernel
import proofs.«149567_j88656714925232_2_alg».proof.Proof.Gen.Kernel.Skeleton
import proofs.«149567_j88656714925232_2_alg».proof.Proof.Gen.Kernel.Launch
import proofs.«149567_j88656714925232_2_alg».proof.Proof.Gen.Kernel.Points
import proofs.«149567_j88656714925232_2_alg».proof.Proof.Gen.Kernel.Frame
import proofs.«149567_j88656714925232_2_alg».proof.Proof.Gen.KernelIdeal
import proofs.«149567_j88656714925232_2_alg».proof.Proof.Gen.KernelIdeal.Skeleton
import proofs.«149567_j88656714925232_2_alg».proof.Proof.Gen.KernelIdeal.Launch
import proofs.«149567_j88656714925232_2_alg».proof.Proof.Gen.KernelIdeal.Points
import proofs.«149567_j88656714925232_2_alg».proof.Proof.Gen.KernelIdeal.Frame
import proofs.«149567_j88656714925232_2_alg».proof.Proof.Gen.ReferenceIdeal
import proofs.«149567_j88656714925232_2_alg».proof.Proof.Gen.Pre_finite_inputs
import proofs.«149567_j88656714925232_2_alg».proof.Proof.Gen.ReferenceIdeal.Run
import proofs.«149567_j88656714925232_2_alg».proof.Proof.Gen.ReferenceIdeal.Read
import proofs.«149567_j88656714925232_2_alg».proof.Proof.Bridge
import Idealize.ShloMosaic.Adequacy
import Idealize.ShloMosaic.Init

noncomputable section

namespace Cert.Proof

open Idealize.ShloMosaic Idealize.SL.Sem Cert.Kernel

theorem frame_p : Cert.frame_Kernel := fun m ρ _ => Cert.Kernel.Gen.frame m ρ

theorem frame_pi : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_p, frame_pi, frame_ri, trivial, Cert.Proof.Bridge.algebraic⟩

end Cert.Proof

end
